-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x800000 : Shape := ⟨2, ![2, 800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : IVec S2x800000 32) (main_arg6 : IVec S2x800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S2x800000 : Shape := ⟨2, ![2, 800000]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S5000x128 : Shape := ⟨2, ![5000, 128]⟩
abbrev S1600000x128 : Shape := ⟨2, ![1600000, 128]⟩
abbrev S100000x1 : Shape := ⟨2, ![100000, 1]⟩
abbrev S1x128 : Shape := ⟨2, ![1, 128]⟩
abbrev S5000x1 : Shape := ⟨2, ![5000, 1]⟩

abbrev nBuf : Space → Nat
  | .hbm => 126
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x800000, .i32⟩
  | .hbm, ⟨6, _⟩ => ⟨S2x800000, .i32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S1600000, .f32⟩
  | .hbm, ⟨48, _⟩ => ⟨S100000x128, .f32⟩
  | .hbm, ⟨49, _⟩ => ⟨S1600000x1, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000, .f32⟩
  | .hbm, ⟨66, _⟩ => ⟨S100000x1, .f32⟩
  | .hbm, ⟨67, _⟩ => ⟨S1x128, .f32⟩
  | .hbm, ⟨68, _⟩ => ⟨S100000x128, .f32⟩
  | .hbm, ⟨69, _⟩ => ⟨S_, .f32⟩
  | .hbm, ⟨70, _⟩ => ⟨S1600000, .f32⟩
  | .hbm, ⟨71, _⟩ => ⟨S_, .f32⟩
  | .hbm, ⟨72, _⟩ => ⟨S100000, .f32⟩
  | .hbm, ⟨73, _⟩ => ⟨S1600000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000, .f32⟩
  | .hbm, ⟨95, _⟩ => ⟨S_, .i32⟩
  | .hbm, ⟨96, _⟩ => ⟨S1600000, .i32⟩
  | .hbm, ⟨97, _⟩ => ⟨S1600000, .i1⟩
  | .hbm, ⟨98, _⟩ => ⟨S_, .i32⟩
  | .hbm, ⟨99, _⟩ => ⟨S1600000, .i32⟩
  | .hbm, ⟨100, _⟩ => ⟨S1600000, .i32⟩
  | .hbm, ⟨101, _⟩ => ⟨S1600000, .i32⟩
  | .hbm, ⟨102, _⟩ => ⟨S1600000x1, .i32⟩
  | .hbm, ⟨103, _⟩ => ⟨S1600000, .f32⟩
  | .hbm, ⟨104, _⟩ => ⟨S1600000, .f32⟩
  | .hbm, ⟨105, _⟩ => ⟨S100000x128, .f32⟩
  | .hbm, ⟨106, _⟩ => ⟨S1600000x1, .f32⟩
  | .hbm, ⟨107, _⟩ => ⟨S_, .i32⟩
  | .hbm, ⟨108, _⟩ => ⟨S1600000, .i32⟩
  | .hbm, ⟨109, _⟩ => ⟨S1600000, .i1⟩
  | .hbm, ⟨110, _⟩ => ⟨S_, .i32⟩
  | .hbm, ⟨111, _⟩ => ⟨S1600000, .i32⟩
  | .hbm, ⟨112, _⟩ => ⟨S1600000, .i32⟩
  | .hbm, ⟨113, _⟩ => ⟨S1600000, .i32⟩
  | .hbm, ⟨114, _⟩ => ⟨S1600000x1, .i32⟩
  | .hbm, ⟨115, _⟩ => ⟨S1600000x128, .f32⟩
  | .hbm, ⟨116, _⟩ => ⟨S1600000x128, .f32⟩
  | .hbm, ⟨117, _⟩ => ⟨S1600000x128, .f32⟩
  | .hbm, ⟨118, _⟩ => ⟨S_, .f32⟩
  | .hbm, ⟨119, _⟩ => ⟨S100000x128, .f32⟩
  | .hbm, ⟨120, _⟩ => ⟨S1600000x1, .i32⟩
  | .hbm, ⟨121, _⟩ => ⟨S100000x128, .f32⟩
  | .hbm, ⟨122, _⟩ => ⟨S100000, .f32⟩
  | .hbm, ⟨123, _⟩ => ⟨S100000x1, .f32⟩
  | .hbm, ⟨124, _⟩ => ⟨S1x128, .f32⟩
  | .hbm, ⟨125, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_14 : Ref sig .tc := ⟨.hbm, 82, rfl⟩
abbrev main_call1_v0 : Ref sig .tc := ⟨.hbm, 83, rfl⟩
abbrev main_call1_v1 : Ref sig .tc := ⟨.hbm, 84, rfl⟩
abbrev main_v57 : Ref sig .tc := ⟨.hbm, 85, rfl⟩
abbrev main_c_15 : Ref sig .tc := ⟨.hbm, 86, rfl⟩
abbrev main_v58 : Ref sig .tc := ⟨.hbm, 87, rfl⟩
abbrev main_v59 : Ref sig .tc := ⟨.hbm, 88, rfl⟩
abbrev main_c_16 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_17 : Ref sig .tc := ⟨.hbm, 95, rfl⟩
abbrev main_v65 : Ref sig .tc := ⟨.hbm, 96, rfl⟩
abbrev main_v66 : Ref sig .tc := ⟨.hbm, 97, rfl⟩
abbrev main_c_18 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_19 : Ref sig .tc := ⟨.hbm, 107, rfl⟩
abbrev main_v75 : Ref sig .tc := ⟨.hbm, 108, rfl⟩
abbrev main_v76 : Ref sig .tc := ⟨.hbm, 109, rfl⟩
abbrev main_c_20 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_21 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  concatenates_S2x800000_S2x800000_S2x1600000_d1 : Shape.Concatenates [S2x800000, S2x800000] S2x1600000 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v86) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v88) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v89) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v90) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x800000 : Shape := ⟨2, ![2, 800000]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S2x800000, .i32⟩
  | 6 => ⟨S2x800000, .i32⟩
  | 7 => ⟨S2x1600000, .i32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S100000x128, .f32⟩
  | 49 => ⟨S1600000x1, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000, .f32⟩
  | 66 => ⟨S100000x1, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S1600000, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000, .f32⟩
  | 108 => ⟨S1600000, .f32⟩
  | 109 => ⟨S100000x128, .f32⟩
  | 110 => ⟨S1600000x1, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x128, .f32⟩
  | 120 => ⟨S1600000x128, .f32⟩
  | 121 => ⟨S1600000x128, .f32⟩
  | 122 => ⟨S_, .f32⟩
  | 123 => ⟨S100000x128, .f32⟩
  | 124 => ⟨S1600000x1, .i32⟩
  | 125 => ⟨S100000x128, .f32⟩
  | 126 => ⟨S100000, .f32⟩
  | 127 => ⟨S100000x1, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S1x128, .f32⟩
  | 4 => ⟨S100000x128, .f32⟩
  | 5 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_cst_13 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_14 : Ref sig .tc := ⟨.hbm, 86, rfl⟩
abbrev main_call1_v0 : Ref sig .tc := ⟨.hbm, 87, rfl⟩
abbrev main_call1_v1 : Ref sig .tc := ⟨.hbm, 88, rfl⟩
abbrev main_v61 : Ref sig .tc := ⟨.hbm, 89, rfl⟩
abbrev main_c_15 : Ref sig .tc := ⟨.hbm, 90, rfl⟩
abbrev main_v62 : Ref sig .tc := ⟨.hbm, 91, rfl⟩
abbrev main_v63 : Ref sig .tc := ⟨.hbm, 92, rfl⟩
abbrev main_c_16 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_17 : Ref sig .tc := ⟨.hbm, 99, rfl⟩
abbrev main_v69 : Ref sig .tc := ⟨.hbm, 100, rfl⟩
abbrev main_v70 : Ref sig .tc := ⟨.hbm, 101, rfl⟩
abbrev main_c_18 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_19 : Ref sig .tc := ⟨.hbm, 111, rfl⟩
abbrev main_v79 : Ref sig .tc := ⟨.hbm, 112, rfl⟩
abbrev main_v80 : Ref sig .tc := ⟨.hbm, 113, rfl⟩
abbrev main_c_20 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_21 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]

class Facts₀ : Prop where
  concatenates_S2x800000_S2x800000_S2x1600000_d1 : Shape.Concatenates [S2x800000, S2x800000] S2x1600000 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The kernel's program run, with its result named.

  Every weakly fair execution of the program terminates without a fault; at the end every buffer that outlives the
  regions holds what the fold through the program's segments says — each host stretch applied in order, each
  region's arrays at what its write-backs leave.  The frame claim reads the seven argument buffers off that final
  state; this theorem reads the result buffer off it as well, at the fold's last contents.  It is the same
  application of the several-regions launch theorem to the same segments as the frame claim's, with one more
  buffer read at the end.
-/
import proofs.«178049_j20804821581912_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v90) = W12 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v90 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.Hand

end
-- ==== Proof.BlockBodies.lean ====
/-
  What the two kernel bodies compute on one block, read at an entry, over the extended reals.

  The projection body rounds both operands to a narrower float format (no change over the extended reals) and
  multiplies a block of 5000 rows by the whole weight matrix into a zero accumulator: entry (p, q) of the result is
  the sum over k of x(p, k) · w(k, q).  The combine body is pointwise: entry (p, q) is
  (agg(p, q) + d(p) · h(p, q)) + b(q), the column d and the row b broadcast along the other axis.
-/
import proofs.«178049_j20804821581912_1_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-- The dimension record of the block product: rows × contraction against contraction × columns. -/
abbrev blockDot := dot_S5000x128_S128x128_S5000x128_1_0_0_1_n_n

theorem blockDot_lhs0 (j : S5000x128.Idx) (q : blockDot.contr.Idx) : (blockDot.lhsIdx j q 0).val = (j 0).val := by
  unfold DotDims.lhsIdx
  rw [dif_neg (show ¬(0 : Fin S5000x128.rank) ∈ blockDot.lhsBatch by decide), dif_pos (show (0 : Fin S5000x128.rank) ∈ blockDot.lhsNonContracting by decide)]
  rfl
theorem blockDot_lhs1 (j : S5000x128.Idx) (q : blockDot.contr.Idx) : (blockDot.lhsIdx j q 1).val = (q ⟨0, by decide⟩).val :=
  blockDot.lhsIdx_val_of_single rfl j q
theorem blockDot_rhs0 (j : S5000x128.Idx) (q : blockDot.contr.Idx) : (blockDot.rhsIdx j q 0).val = (q ⟨0, by decide⟩).val :=
  blockDot.rhsIdx_val_of_single rfl j q
theorem blockDot_rhs1 (j : S5000x128.Idx) (q : blockDot.contr.Idx) : (blockDot.rhsIdx j q 1).val = (j 1).val := by
  unfold DotDims.rhsIdx
  rw [dif_neg (show ¬(1 : Fin S128x128.rank) ∈ blockDot.rhsBatch by decide), dif_pos (show (1 : Fin S128x128.rank) ∈ blockDot.rhsNonContracting by decide)]
  rfl

/-- A block product into the zero accumulator, at the entry in row p and column q: the contraction is one axis of
    128, so the sum over the contraction's index set is a sum over k < 128 of x(p, k) · w(k, q). -/
theorem blockProduct_apply (x : FVec Ideal S5000x128 .bf16) (w : FVec Ideal S128x128 .bf16) (p : Fin 5000) (q : Fin 128) :
    FloatOps.matmul blockDot none x w (constant (F := Ideal) S5000x128 .f32 0x00000000#32) (ix2 p q)
      = ∑ k : Fin 128, x (ix2 p k) * w (ix2 k q) := by
  rw [Ideal.matmul_constant_zero_apply, ← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact blockDot_lhs0 _ _
    | ⟨1, _⟩ => exact (blockDot_lhs1 _ _).trans hk)
  have er : blockDot.rhsIdx (ix2 p q) ((contrEquiv1 blockDot 128 rfl rfl).symm k) = ix2 k q := funext fun a => Fin.ext (by
    match a with
    | ⟨0, _⟩ => exact (blockDot_rhs0 _ _).trans hk
    | ⟨1, _⟩ => exact blockDot_rhs1 _ _)
  rw [el, er]

/-- The first projection's body at an entry. -/
theorem projectBody0_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  exact blockProduct_apply _ _ p q

/-- The second projection's body at an entry (it first casts its block to its own shape, which changes nothing). -/
theorem projectBody2_apply (x : Vec Ideal S5000x128 .f32) (w : Vec Ideal S128x128 .f32) (p : Fin 5000) (q : Fin 128) :
    k2_pay1 (F := Ideal) x w (ix2 p q) = ∑ k : Fin 128, x (ix2 p k) * w (ix2 k q) := by
  unfold k2_pay1
  rw [shapeCast_self]
  exact blockProduct_apply _ _ p q

/-- A column of 5000 numbers broadcast along the 128 features, at an entry: the row's number. -/
theorem colBroadcast_apply (d : Vec Ideal S5000x1 .f32) (p : Fin 5000) (q : Fin 128) :
    broadcastTo S5000x128 d broadcasts_S5000x1_S5000x128 (ix2 p q) = d (ix2 p (0 : Fin 1)) :=
  broadcastTo_apply d broadcasts_S5000x1_S5000x128 (ix2 p q) (ix2 p (0 : Fin 1)) fun a => by
    match a with
    | ⟨0, _⟩ => exact (if_neg (show ¬((5000 : Nat) = 1) by decide)).symm
    | ⟨1, _⟩ => exact (if_pos (show (1 : Nat) = 1 from rfl)).symm

/-- A row of 128 numbers broadcast along the 5000 rows, at an entry: the feature's number. -/
theorem rowBroadcast_apply (b : Vec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) fun a => by
    match a with
    | ⟨0, _⟩ => exact (if_pos (show (1 : Nat) = 1 from rfl)).symm
    | ⟨1, _⟩ => exact (if_neg (show ¬((128 : Nat) = 1) by decide)).symm

/-- The first combine body at an entry. -/
theorem combineBody1_apply (agg : Vec Ideal S5000x128 .f32) (d : Vec Ideal S5000x1 .f32) (h : Vec Ideal S5000x128 .f32)
    (b : Vec Ideal S1x128 .f32) (p : Fin 5000) (q : Fin 128) :
    k1_pay1 (F := Ideal) agg d h b (ix2 p q)
      = (agg (ix2 p q) + d (ix2 p (0 : Fin 1)) * h (ix2 p q)) + b (ix2 (0 : Fin 1) q) := by
  unfold k1_pay1
  simp only [shapeCast_self]
  show (agg (ix2 p q) + broadcastTo S5000x128 d broadcasts_S5000x1_S5000x128 (ix2 p q) * h (ix2 p q)) + broadcastTo S5000x128 b broadcasts_S1x128_S5000x128 (ix2 p q) = _
  rw [colBroadcast_apply, rowBroadcast_apply]

/-- The second combine body at an entry. -/
theorem combineBody3_apply (agg : Vec Ideal S5000x128 .f32) (d : Vec Ideal S5000x1 .f32) (h : Vec Ideal S5000x128 .f32)
    (b : Vec Ideal S1x128 .f32) (p : Fin 5000) (q : Fin 128) :
    k3_pay1 (F := Ideal) agg d h b (ix2 p q)
      = (agg (ix2 p q) + d (ix2 p (0 : Fin 1)) * h (ix2 p q)) + b (ix2 (0 : Fin 1) q) := by
  unfold k3_pay1
  simp only [shapeCast_self]
  show (agg (ix2 p q) + broadcastTo S5000x128 d broadcasts_S5000x1_S5000x128 (ix2 p q) * h (ix2 p q)) + broadcastTo S5000x128 b broadcasts_S1x128_S5000x128 (ix2 p q) = _
  rw [colBroadcast_apply, rowBroadcast_apply]

end Cert.KernelIdeal.Hand

end
-- ==== Proof.GcnSpec.lean ====
/-
  The mathematics both programs compute, stated once, with no program in sight.

  A layer of the network takes node features, projects every node's row by a weight matrix, gathers the projected
  rows along the edges and adds them onto their target nodes (with a normalising factor per edge), and finally adds
  the node's own projected row scaled by its squared inverse root degree, and a bias.  The gather and the
  scatter-add are the same host operations in both programs; the two places where the programs are written
  differently are the projection (one whole product against a product taken block of rows by block of rows) and the
  last pointwise step (broadcasts and whole-array sums and products against a block-by-block pointwise pass).  This
  module states those two as functions of whole arrays, index by index, over the extended reals.
-/
import Idealize.ShloMosaic.PureOps.Ideal
import Idealize.ShloMosaic.Lib.ValueIdx

noncomputable section

open scoped BigOperators

namespace Cert.GcnSpec

open Idealize.ShloMosaic Idealize.ShloMosaic.ValueIdx

/-- Node features: one row of 128 numbers per node. -/
abbrev Nodes : Shape := ⟨2, ![100000, 128]⟩
/-- A weight matrix. -/
abbrev Wts : Shape := ⟨2, ![128, 128]⟩
/-- One number per node, kept as a column. -/
abbrev Col : Shape := ⟨2, ![100000, 1]⟩
/-- One number per feature, kept as a row. -/
abbrev Row : Shape := ⟨2, ![1, 128]⟩

/-- The projection: entry (r, c) is the sum over k of x(r, k) · w(k, c). -/
def projectAt (x : Nodes.Idx → EReal) (w : Wts.Idx → EReal) (r : Fin 100000) (c : Fin 128) : EReal :=
  ∑ k : Fin 128, x (ix2 r k) * w (ix2 k c)

/-- The projection of whole arrays. -/
def project (x : Nodes.Idx → EReal) (w : Wts.Idx → EReal) : Nodes.Idx → EReal :=
  fun i => projectAt x w (i 0) (i 1)

/-- The last step of a layer: entry (r, c) is (agg(r, c) + d(r) · h(r, c)) + b(c), in this order. -/
def combineAt (agg h : Nodes.Idx → EReal) (d : Col.Idx → EReal) (b : Row.Idx → EReal) (r : Fin 100000) (c : Fin 128) : EReal :=
  (agg (ix2 r c) + d (ix2 r (0 : Fin 1)) * h (ix2 r c)) + b (ix2 (0 : Fin 1) c)

/-- The last step of a layer, of whole arrays. -/
def combine (agg h : Nodes.Idx → EReal) (d : Col.Idx → EReal) (b : Row.Idx → EReal) : Nodes.Idx → EReal :=
  fun i => combineAt agg h d b (i 0) (i 1)

theorem project_apply (x : Nodes.Idx → EReal) (w : Wts.Idx → EReal) (r : Fin 100000) (c : Fin 128) :
    project x w (ix2 r c) = ∑ k : Fin 128, x (ix2 r k) * w (ix2 k c) := rfl

theorem combine_apply (agg h : Nodes.Idx → EReal) (d : Col.Idx → EReal) (b : Row.Idx → EReal) (r : Fin 100000) (c : Fin 128) :
    combine agg h d b (ix2 r c) = (agg (ix2 r c) + d (ix2 r (0 : Fin 1)) * h (ix2 r c)) + b (ix2 (0 : Fin 1) c) := rfl

end Cert.GcnSpec

end
-- ==== Proof.ProjectFirst.lean ====
/-
  The first layer's projection region: the array it leaves is the whole product.

  The grid has 20 points; point t reads rows 5000·t … 5000·t + 4999 of the node features and the whole weight
  matrix, and writes the same rows of the result.  Entry (p, q) of what it writes is the sum over k of the block's
  (p, k) entry times the weights' (k, q) entry, and the block's (p, k) entry is the features' (5000·t + p, k) entry:
  so the block written is the same rows of the whole product.  Every row lies in exactly the block of the point
  t = row / 5000, so the blocks cover the array.
-/
import proofs.«178049_j20804821581912_1_alg».proof.Proof.Gen.KernelIdeal.Frame
import proofs.«178049_j20804821581912_1_alg».proof.Proof.BlockBodies
import proofs.«178049_j20804821581912_1_alg».proof.Proof.GcnSpec
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets0 : (![0, 0] : Fin 2 → Nat) = fun _ => 0 := funext fun a => by fin_cases a <;> rfl

/-- The three index maps, decided once over the grid: the features' and the result's block is the point's own, in
    the only column of blocks; the weights' block is the one block there is. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point t, at (p, k): the features at (5000·t + p, k). -/
theorem featuresBlock0 (c : Dev nD) (t : Fin cfg0.N) (p : Fin 5000) (k : Fin 128) (r : Fin 100000) (hr : r.val = t.val * 5000 + p.val) :
    (iblk0 V c 0 t : Vec Ideal S5000x128 .f32) (ix2 p k) = (V c main_arg0 : S100000x128.Idx → EReal) (ix2 r k) := by
  obtain ⟨e0, e1, -⟩ := blockIndex0 t
  show (V c main_arg0 : S100000x128.Idx → EReal) (((cfg0.win 0).blk t).view.emb (ix2 p k)) = _
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weights' block at any point is the weights. -/
theorem weightsBlock0 (c : Dev nD) (t : Fin cfg0.N) (k : Fin 128) (q : Fin 128) :
    (iblk0 V c 1 t : Vec Ideal S128x128 .f32) (ix2 k q) = (V c main_arg1 : S128x128.Idx → EReal) (ix2 k q) := by
  obtain ⟨-, -, e2, e3, -⟩ := blockIndex0 t
  show (V c main_arg1 : S128x128.Idx → EReal) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- What point t writes back is its rows of the whole product. -/
theorem written0 (c : Dev nD) (t : Fin cfg0.N) :
    (dat0 V c).flushed 2 t = ((cfg0.win 2).blk t).view.read (Elt Ideal)
      (GcnSpec.project (V c main_arg0) (V c main_arg1)) := by
  show (cfg0.win 2).cut (grid0.coords t) ((dat0 V c).after 2 t) = _
  rw [after0_2]
  unfold out0_2
  rw [View.canon_unit_zero zeroOffsets0]
  simp only [View.ld_unit_zero (S := S5000x128) zeroOffsets0, View.ld_unit_zero (S := S128x128) zeroOffsets0]
  funext j
  obtain ⟨p, q, rfl⟩ : ∃ (p : Fin 5000) (q : Fin 128), j = ix2 p q := ⟨j 0, j 1, eq_ix2 j⟩
  obtain ⟨-, -, -, -, e4, e5⟩ := blockIndex0 t
  have ht : t.val < 20 := Nat.lt_of_lt_of_eq t.isLt N_0
  obtain ⟨r, hr⟩ : ∃ r : Fin 100000, r.val = t.val * 5000 + p.val := ⟨⟨t.val * 5000 + p.val, by have := p.isLt; omega⟩, rfl⟩
  have hemb : ((cfg0.win 2).blk t).view.emb (ix2 p q) = (ix2 r q : S100000x128.Idx) := funext fun a => Fin.ext (by
    match a with
    | ⟨0, _⟩ => show win0_2.index t (0 : Fin 2) * 5000 + 1 * p.val = r.val; omega
    | ⟨1, _⟩ => show win0_2.index t (1 : Fin 2) * 128 + 1 * q.val = q.val; omega)
  show k0_pay1 (F := Ideal) (iblk0 V c 0 t) (iblk0 V c 1 t) (ix2 p q)
    = GcnSpec.project (V c main_arg0) (V c main_arg1) (((cfg0.win 2).blk t).view.emb (ix2 p q))
  rw [hemb]
  refine (projectBody0_apply (iblk0 V c 0 t) (iblk0 V c 1 t) p q).trans ?_
  refine (Finset.sum_congr rfl fun k _ => ?_).trans (GcnSpec.project_apply _ _ r q).symm
  exact congr (congrArg _ (featuresBlock0 V c t p k r hr)) (weightsBlock0 V c t k q)

/-- An entry of the result is in point t's block exactly when its coordinates are in the block's ranges. -/
theorem inBlock0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every entry of the result is in the block of the point its row divided by 5000 names. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, e4, e5⟩ := blockIndex0 t
  refine ⟨t, flush0_2 t, ?_⟩
  rw [inBlock0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its result array holds the whole product of the two arrays it was entered with. -/
theorem projected0 (c : Dev nD) :
    (dat0 V c).arrAt 2 cfg0.N = GcnSpec.project (V c main_arg0) (V c main_arg1) :=
  (dat0 V c).arrAt_eq_of_cover 2 _ (fun t _ => written0 V c t) covered0

end Cert.KernelIdeal.Hand

end
-- ==== Proof.CombineFirst.lean ====
/-
  The first layer's combine region: the array it leaves is the pointwise combination of the four arrays it reads.

  The grid has 20 points; point t reads rows 5000·t … 5000·t + 4999 of the aggregate, of the projected features and
  of the column of squared inverse root degrees, and the whole bias row, and writes the same rows of the result.
  Entry (p, q) of what it writes is (aggregate + degree factor · projected) + bias at the block's entries, and each
  block entry is the whole array's entry in row 5000·t + p: so the block written is the same rows of the whole
  pointwise combination.  Every row lies in the block of the point t = row / 5000, so the blocks cover the array.
-/
import proofs.«178049_j20804821581912_1_alg».proof.Proof.Gen.KernelIdeal.Frame
import proofs.«178049_j20804821581912_1_alg».proof.Proof.BlockBodies
import proofs.«178049_j20804821581912_1_alg».proof.Proof.GcnSpec
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets1 : (![0, 0] : Fin 2 → Nat) = fun _ => 0 := funext fun a => by fin_cases a <;> rfl

/-- The five index maps, decided once over the grid: the three row-blocked inputs and the result take the point's
    own block of rows; the bias row's block is the one block there is. -/
theorem blockIndex1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point t, at (p, q): the aggregate at (5000·t + p, q). -/
theorem aggregateBlock1 (c : Dev nD) (t : Fin cfg1.N) (p : Fin 5000) (q : Fin 128) (r : Fin 100000) (hr : r.val = t.val * 5000 + p.val) :
    (iblk1 V c 0 t : Vec Ideal S5000x128 .f32) (ix2 p q) = (V c main_v43 : S100000x128.Idx → EReal) (ix2 r q) := by
  obtain ⟨e0, e1, -⟩ := blockIndex1 t
  show (V c main_v43 : S100000x128.Idx → EReal) (((cfg1.win 0).blk t).view.emb (ix2 p q)) = _
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * q.val = q.val; omega

/-- The projected features' block at point t, at (p, q): the projected features at (5000·t + p, q). -/
theorem projectedBlock1 (c : Dev nD) (t : Fin cfg1.N) (p : Fin 5000) (q : Fin 128) (r : Fin 100000) (hr : r.val = t.val * 5000 + p.val) :
    (iblk1 V c 1 t : Vec Ideal S5000x128 .f32) (ix2 p q) = (V c main_v30 : S100000x128.Idx → EReal) (ix2 r q) := by
  obtain ⟨-, -, e2, e3, -⟩ := blockIndex1 t
  show (V c main_v30 : S100000x128.Idx → EReal) (((cfg1.win 1).blk t).view.emb (ix2 p q)) = _
  refine congrArg _ (funext fun a => Fin.ext ?_)
  match a with
  | ⟨0, _⟩ => show win1_1.index t (0 : Fin 2) * 5000 + 1 * p.val = r.val; omega
  | ⟨1, _⟩ => show win1_1.index t (1 : Fin 2) * 128 + 1 * q.val = q.val; omega

/-- The degree column's block at point t, at row p: the column at row 5000·t + p. -/
theorem degreeBlock1 (c : Dev nD) (t : Fin cfg1.N) (p : Fin 5000) (r : Fin 100000) (hr : r.val = t.val * 5000 + p.val) :
    (iblk1 V c 2 t : Vec Ideal S5000x1 .f32) (ix2 p (0 : Fin 1)) = (V c main_v45 : S100000x1.Idx → EReal) (ix2 r (0 : Fin 1)) := by
  obtain ⟨-, -, -, -, e4, e5, -⟩ := blockIndex1 t
  show (V c main_v45 : S100000x1.Idx → EReal) (((cfg1.win 2).blk t).view.emb (ix2 p (0 : Fin 1))) = _
  refine congrArg _ (funext fun a => Fin.ext ?_)
  match a with
  | ⟨0, _⟩ => show win1_2.index t (0 : Fin 2) * 5000 + 1 * p.val = r.val; omega
  | ⟨1, _⟩ => show win1_2.index t (1 : Fin 2) * 1 + 1 * 0 = 0; omega

/-- The bias row's block at any point is the bias row. -/
theorem biasBlock1 (c : Dev nD) (t : Fin cfg1.N) (q : Fin 128) :
    (iblk1 V c 3 t : Vec Ideal S1x128 .f32) (ix2 (0 : Fin 1) q) = (V c main_v46 : S1x128.Idx → EReal) (ix2 (0 : Fin 1) q) := by
  obtain ⟨-, -, -, -, -, -, e6, e7, -⟩ := blockIndex1 t
  show (V c main_v46 : S1x128.Idx → EReal) (((cfg1.win 3).blk t).view.emb (ix2 (0 : Fin 1) q)) = _
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- What point t writes back is its rows of the whole pointwise combination. -/
theorem written1 (c : Dev nD) (t : Fin cfg1.N) :
    (dat1 V c).flushed 4 t = ((cfg1.win 4).blk t).view.read (Elt Ideal)
      (GcnSpec.combine (V c main_v43) (V c main_v30) (V c main_v45) (V c main_v46)) := by
  show (cfg1.win 4).cut (grid1.coords t) ((dat1 V c).after 4 t) = _
  rw [after1_4]
  unfold out1_4
  rw [View.canon_unit_zero zeroOffsets1]
  simp only [View.ld_unit_zero (S := S5000x128) zeroOffsets1, View.ld_unit_zero (S := S5000x1) zeroOffsets1, View.ld_unit_zero (S := S1x128) zeroOffsets1]
  funext j
  obtain ⟨p, q, rfl⟩ : ∃ (p : Fin 5000) (q : Fin 128), j = ix2 p q := ⟨j 0, j 1, eq_ix2 j⟩
  obtain ⟨-, -, -, -, -, -, -, -, e8, e9⟩ := blockIndex1 t
  have ht : t.val < 20 := Nat.lt_of_lt_of_eq t.isLt N_1
  obtain ⟨r, hr⟩ : ∃ r : Fin 100000, r.val = t.val * 5000 + p.val := ⟨⟨t.val * 5000 + p.val, by have := p.isLt; omega⟩, rfl⟩
  have hemb : ((cfg1.win 4).blk t).view.emb (ix2 p q) = (ix2 r q : S100000x128.Idx) := funext fun a => Fin.ext (by
    match a with
    | ⟨0, _⟩ => show win1_4.index t (0 : Fin 2) * 5000 + 1 * p.val = r.val; omega
    | ⟨1, _⟩ => show win1_4.index t (1 : Fin 2) * 128 + 1 * q.val = q.val; omega)
  show k1_pay1 (F := Ideal) (iblk1 V c 0 t) (iblk1 V c 2 t) (iblk1 V c 1 t) (iblk1 V c 3 t) (ix2 p q)
    = GcnSpec.combine (V c main_v43) (V c main_v30) (V c main_v45) (V c main_v46) (((cfg1.win 4).blk t).view.emb (ix2 p q))
  rw [hemb]
  refine (combineBody1_apply (iblk1 V c 0 t) (iblk1 V c 2 t) (iblk1 V c 1 t) (iblk1 V c 3 t) p q).trans ?_
  refine Eq.trans ?_ (GcnSpec.combine_apply _ _ _ _ r q).symm
  have a0 := aggregateBlock1 V c t p q r hr
  have a1 := projectedBlock1 V c t p q r hr
  have a2 := degreeBlock1 V c t p r hr
  have a3 := biasBlock1 V c t q
  exact congr (congrArg _ (congr (congrArg _ a0) (congr (congrArg _ a2) a1))) a3

/-- An entry of the result is in point t's block exactly when its coordinates are in the block's ranges. -/
theorem inBlock1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v47).slice (win1_4.rect t)).set ↔ _
  rw [View.set_slice_whole, Rect.mem_set_unit]
  exact Iff.rfl

/-- Every entry of the result is in the block of the point its row divided by 5000 names. -/
theorem covered1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, -, e8, e9⟩ := blockIndex1 t
  refine ⟨t, flush1_4 t, ?_⟩
  rw [inBlock1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- After the region its result array holds the pointwise combination of the four arrays it was entered with. -/
theorem combined1 (c : Dev nD) :
    (dat1 V c).arrAt 4 cfg1.N = GcnSpec.combine (V c main_v43) (V c main_v30) (V c main_v45) (V c main_v46) :=
  (dat1 V c).arrAt_eq_of_cover 4 _ (fun t _ => written1 V c t) covered1

end Cert.KernelIdeal.Hand

end
-- ==== Proof.RefLaws.lean ====
/-
  The reference's two dense steps as the functions of the specification.

  The reference takes the projection as one whole product on the host: entry (r, c) is the sum over the contraction
  index, which is one axis of 128, so the sum over k < 128 of x(r, k) · w(k, c).  It takes the last step of a layer
  as whole-array operations: the column of degree factors broadcast along the features, times the projected
  features, added to the aggregate, plus the bias row broadcast along the nodes — at entry (r, c) that is
  (agg(r, c) + d(r) · h(r, c)) + b(c).
-/
import proofs.«178049_j20804821581912_1_alg».proof.Proof.RefRead
import proofs.«178049_j20804821581912_1_alg».proof.Proof.GcnSpec

noncomputable section

open scoped BigOperators

namespace Cert.ReferenceIdeal.Hand

open Cert.ReferenceIdeal Cert.ReferenceIdeal.Gen Cert.ReferenceIdeal.Read Idealize.ShloMosaic Idealize.ShloMosaic.TcCoe Idealize.ShloMosaic.ValueIdx

/-- The host's whole product is the specification's projection. -/
theorem product_eq_project (x : (⟨S100000x128, .f32⟩ : BufTy).Contents (Elt Ideal)) (w : (⟨S128x128, .f32⟩ : BufTy).Contents (Elt Ideal)) :
    val_main_v30 (F := Ideal) x w = GcnSpec.project x w := by
  funext i
  obtain ⟨r, c, rfl⟩ : ∃ (r : Fin 100000) (c : Fin 128), i = ix2 r c := ⟨i 0, i 1, eq_ix2 i⟩
  refine (val_main_v30_apply x w (ix2 r c)).trans ?_
  refine (Finset.sum_congr rfl fun k _ => ?_).trans (GcnSpec.project_apply x w r c).symm
  have el : lidx_main_v30 (ix2 r c) k = ix2 r k := funext fun a => Fin.ext (by
    match a with
    | ⟨0, _⟩ => rfl
    | ⟨1, _⟩ => rfl)
  have er : ridx_main_v30 (ix2 r c) k = ix2 k c := funext fun a => Fin.ext (by
    match a with
    | ⟨0, _⟩ => rfl
    | ⟨1, _⟩ => rfl)
  rw [el, er]

/-- A column of one number per node broadcast along the features, at an entry: the node's number. -/
theorem nodeColumn_apply (d : (⟨S100000x1, .f32⟩ : BufTy).Contents (Elt Ideal)) (r : Fin 100000) (c : Fin 128) :
    broadcastInDim S100000x128 ![0, 1] bcast_S100000x1_S100000x128_0_1 d (ix2 r c) = d (ix2 r (0 : Fin 1)) :=
  broadcastInDim_apply _ bcast_S100000x1_S100000x128_0_1 d (ix2 r c) (ix2 r (0 : Fin 1)) fun a => by
    match a with
    | ⟨0, _⟩ => exact (if_neg (show ¬((100000 : Nat) = 1) by decide)).symm
    | ⟨1, _⟩ => exact (if_pos (show (1 : Nat) = 1 from rfl)).symm

/-- A row of one number per feature broadcast along the nodes, at an entry: the feature's number. -/
theorem featureRow_apply (b : (⟨S1x128, .f32⟩ : BufTy).Contents (Elt Ideal)) (r : Fin 100000) (c : Fin 128) :
    broadcastInDim S100000x128 ![0, 1] bcast_S1x128_S100000x128_0_1 b (ix2 r c) = b (ix2 (0 : Fin 1) c) :=
  broadcastInDim_apply _ bcast_S1x128_S100000x128_0_1 b (ix2 r c) (ix2 (0 : Fin 1) c) fun a => by
    match a with
    | ⟨0, _⟩ => exact (if_pos (show (1 : Nat) = 1 from rfl)).symm
    | ⟨1, _⟩ => exact (if_neg (show ¬((128 : Nat) = 1) by decide)).symm

/-- The reference's last step of a layer, written with whole-array operations, is the specification's combination. -/
theorem tail_eq_combine (agg h : FVec Ideal S100000x128 .f32) (d : FVec Ideal S100000x1 .f32) (b : FVec Ideal S1x128 .f32) :
    addf (F := Ideal) (φ := .f32) (addf (F := Ideal) (φ := .f32) agg (mulf (F := Ideal) (φ := .f32) (broadcastInDim S100000x128 ![0, 1] bcast_S100000x1_S100000x128_0_1 d) h))
        (broadcastInDim S100000x128 ![0, 1] bcast_S1x128_S100000x128_0_1 b)
      = GcnSpec.combine agg h d b := by
  funext i
  obtain ⟨r, c, rfl⟩ : ∃ (r : Fin 100000) (c : Fin 128), i = ix2 r c := ⟨i 0, i 1, eq_ix2 i⟩
  refine Eq.trans ?_ (GcnSpec.combine_apply agg h d b r c).symm
  show (agg (ix2 r c) + broadcastInDim S100000x128 ![0, 1] bcast_S100000x1_S100000x128_0_1 d (ix2 r c) * h (ix2 r c))
      + broadcastInDim S100000x128 ![0, 1] bcast_S1x128_S100000x128_0_1 b (ix2 r c) = _
  rw [nodeColumn_apply, featureRow_apply]

/-- The first layer's output, as the reference computes it, is the combination of its aggregate, its projected
    features, its degree factors and its bias row. -/
theorem layer1_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x5 x6 : (⟨S2x800000, .i32⟩ : BufTy).Contents (Elt Ideal)) :
    val_main_v51 (F := Ideal) x0 x1 x2 x5 x6
      = GcnSpec.combine (val_main_v43 (F := Ideal) x0 x1 x5 x6) (val_main_v30 (F := Ideal) x0 x1) (val_main_v45 (F := Ideal) x5 x6) (val_main_v49 (F := Ideal) x2) :=
  tail_eq_combine _ _ _ _

/-- The second layer's projected features are the projection of the first layer's output. -/
theorem product2_eq_project (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal)) (x5 x6 : (⟨S2x800000, .i32⟩ : BufTy).Contents (Elt Ideal)) :
    val_main_v77 (F := Ideal) x0 x1 x2 x3 x5 x6 = GcnSpec.project (val_main_v51 (F := Ideal) x0 x1 x2 x5 x6) x3 :=
  product_eq_project _ _

/-- The second layer's output likewise. -/
theorem layer2_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal)) (x4 : (⟨S128, .f32⟩ : BufTy).Contents (Elt Ideal))
    (x5 x6 : (⟨S2x800000, .i32⟩ : BufTy).Contents (Elt Ideal)) :
    val_main_v98 (F := Ideal) x0 x1 x2 x3 x4 x5 x6
      = GcnSpec.combine (val_main_v90 (F := Ideal) x0 x1 x2 x3 x5 x6) (val_main_v77 (F := Ideal) x0 x1 x2 x3 x5 x6) (val_main_v92 (F := Ideal) x5 x6) (val_main_v96 (F := Ideal) x4) :=
  tail_eq_combine _ _ _ _

end Cert.ReferenceIdeal.Hand

end
-- ==== Proof.KernelStages.lean ====
/-
  What each buffer of the kernel's program holds at each boundary between its host stretches and its four regions,
  as a function of the arguments — stated with the reference's own named stages, so that the two programs are
  compared stage by stage and never as whole terms.

  The program is: host operations that cut the two edge lists out of the concatenated edge arrays, count the degrees
  by a scatter-add of ones, take their inverse square roots and multiply them along each edge; a projection region;
  host operations that gather the projected rows along the edges, weight them and scatter-add them onto the target
  nodes; a combine region; and the same again for the second layer.  This module follows the first layer; Proof/KernelStagesSecond.lean the second.  Every host operation is the reference's own, in
  the same order on the same values, so each stretch's outputs are the reference's stages of the same name once its
  inputs are; a buffer that a stretch or a region does not write keeps its value; and the regions' outputs are the
  reference's by the two laws of the specification (the block-by-block product is the whole product; the
  block-by-block pointwise pass is the whole-array one).  The only spelling difference on the host is the bias row:
  the kernel's program reshapes the 128 biases to a row, the reference broadcasts them to a row.
-/
import proofs.«178049_j20804821581912_1_alg».proof.Proof.Gen.KernelIdeal.Frame
import proofs.«178049_j20804821581912_1_alg».proof.Proof.ProjectFirst
import proofs.«178049_j20804821581912_1_alg».proof.Proof.CombineFirst
import proofs.«178049_j20804821581912_1_alg».proof.Proof.RefLaws
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx
open Cert.ReferenceIdeal.Read

/-- The 128 biases reshaped to a row are the 128 biases broadcast to a row. -/
theorem biasRow_eq (b : (⟨S128, .f32⟩ : BufTy).Contents (Elt Ideal)) :
    (shapeCast S1x128 b shapeCasts_S128_S1x128 : (⟨S1x128, .f32⟩ : BufTy).Contents (Elt Ideal)) = val_main_v49 (F := Ideal) b := by
  funext i
  obtain ⟨z, q, rfl⟩ : ∃ (z : Fin 1) (q : Fin 128), i = ix2 z q := ⟨i 0, i 1, eq_ix2 i⟩
  refine Eq.trans ?_ (val_main_v49_apply b (ix2 z q)).symm
  exact shapeCast_apply b shapeCasts_S128_S1x128 (ix2 z q) _ (by
    rewrite [Shape.rowMajor_val_one, Shape.rowMajor_val_two]
    have hz : z.val < 1 := z.isLt
    show q.val = z.val * 128 + q.val
    omega)

/-- The `where` of a mask, a vector and a scalar, as the host stretch computes it from any contents: the vector where the
    mask holds, the scalar broadcast elsewhere. -/
theorem where_first (W : Valuation τ sig (Elt Ideal)) (p : (⟨S100000, .i1⟩ : BufTy).Contents (Elt Ideal))
    (a : (⟨S100000, .f32⟩ : BufTy).Contents (Elt Ideal)) (z : (⟨S_, .f32⟩ : BufTy).Contents (Elt Ideal))
    (hp : (W (Proc.devRef .tc main_v12) : (⟨S100000, .i1⟩ : BufTy).Contents (Elt Ideal)) = p)
    (ha : (W (Proc.devRef .tc main_v13) : (⟨S100000, .f32⟩ : BufTy).Contents (Elt Ideal)) = a)
    (hz : (W (Proc.devRef .tc main_cst_3) : (⟨S_, .f32⟩ : BufTy).Contents (Elt Ideal)) = z) :
    (StableHlo.after (hostOps0_1 (F := Ideal)) W (Proc.devRef .tc main_v14) : (⟨S100000, .f32⟩ : BufTy).Contents (Elt Ideal))
      = select p a (broadcastInDim S100000 ![] bcast_S_S100000 (id z)) := by
  dsimp only [hostOps0_1]
  after_results_simp
  rw [hp, ha, hz]
  rfl

/-! ### A buffer that a host stretch does not write keeps its value -/

theorem kept_hostOps0_arg0 (W : Valuation τ sig (Elt Ideal)) :
    StableHlo.after (hostOps0 (F := Ideal)) W (Proc.devRef .tc main_arg0) = W (Proc.devRef .tc main_arg0) := by
  dsimp only [hostOps0]; after_results_simp
theorem kept_hostOps0_1_arg0 (W : Valuation τ sig (Elt Ideal)) :
    StableHlo.after (hostOps0_1 (F := Ideal)) W (Proc.devRef .tc main_arg0) = W (Proc.devRef .tc main_arg0) := by
  dsimp only [hostOps0_1]; after_results_simp
theorem kept_hostOps0_2_arg0 (W : Valuation τ sig (Elt Ideal)) :
    StableHlo.after (hostOps0_2 (F := Ideal)) W (Proc.devRef .tc main_arg0) = W (Proc.devRef .tc main_arg0) := by
  dsimp only [hostOps0_2]; after_results_simp
theorem kept_hostOps0_arg1 (W : Valuation τ sig (Elt Ideal)) :
    StableHlo.after (hostOps0 (F := Ideal)) W (Proc.devRef .tc main_arg1) = W (Proc.devRef .tc main_arg1) := by
  dsimp only [hostOps0]; after_results_simp
theorem kept_hostOps0_1_arg1 (W : Valuation τ sig (Elt Ideal)) :
    StableHlo.after (hostOps0_1 (F := Ideal)) W (Proc.devRef .tc main_arg1) = W (Proc.devRef .tc main_arg1) := by
  dsimp only [hostOps0_1]; after_results_simp
theorem kept_hostOps0_2_arg1 (W : Valuation τ sig (Elt Ideal)) :
    StableHlo.after (hostOps0_2 (F := Ideal)) W (Proc.devRef .tc main_arg1) = W (Proc.devRef .tc main_arg1) := by
  dsimp only [hostOps0_2]; after_results_simp
theorem kept_hostOps0_arg2 (W : Valuation τ sig (Elt Ideal)) :
    StableHlo.after (hostOps0 (F := Ideal)) W (Proc.devRef .tc main_arg2) = W (Proc.devRef .tc main_arg2) := by
  dsimp only [hostOps0]; after_results_simp
theorem kept_hostOps0_1_arg2 (W : Valuation τ sig (Elt Ideal)) :
    StableHlo.after (hostOps0_1 (F := Ideal)) W (Proc.devRef .tc main_arg2) = W (Proc.devRef .tc main_arg2) := by
  dsimp only [hostOps0_1]; after_results_simp
theorem kept_hostOps0_2_arg2 (W : Valuation τ sig (Elt Ideal)) :
    StableHlo.after (hostOps0_2 (F := Ideal)) W (Proc.devRef .tc main_arg2) = W (Proc.devRef .tc main_arg2) := by
  dsimp only [hostOps0_2]; after_results_simp
theorem kept_hostOps0_arg3 (W : Valuation τ sig (Elt Ideal)) :
    StableHlo.after (hostOps0 (F := Ideal)) W (Proc.devRef .tc main_arg3) = W (Proc.devRef .tc main_arg3) := by
  dsimp only [hostOps0]; after_results_simp
theorem kept_hostOps0_1_arg3 (W : Valuation τ sig (Elt Ideal)) :
    StableHlo.after (hostOps0_1 (F := Ideal)) W (Proc.devRef .tc main_arg3) = W (Proc.devRef .tc main_arg3) := by
  dsimp only [hostOps0_1]; after_results_simp
theorem kept_hostOps0_2_arg3 (W : Valuation τ sig (Elt Ideal)) :
    StableHlo.after (hostOps0_2 (F := Ideal)) W (Proc.devRef .tc main_arg3) = W (Proc.devRef .tc main_arg3) := by
  dsimp only [hostOps0_2]; after_results_simp
theorem kept_hostOps1_arg3 (W : Valuation τ sig (Elt Ideal)) :
    StableHlo.after (hostOps1 (F := Ideal)) W (Proc.devRef .tc main_arg3) = W (Proc.devRef .tc main_arg3) := by
  dsimp only [hostOps1]; after_results_simp
theorem kept_hostOps2_arg3 (W : Valuation τ sig (Elt Ideal)) :
    StableHlo.after (hostOps2 (F := Ideal)) W (Proc.devRef .tc main_arg3) = W (Proc.devRef .tc main_arg3) := by
  dsimp only [hostOps2]; after_results_simp
theorem kept_hostOps2_1_arg3 (W : Valuation τ sig (Elt Ideal)) :
    StableHlo.after (hostOps2_1 (F := Ideal)) W (Proc.devRef .tc main_arg3) = W (Proc.devRef .tc main_arg3) := by
  dsimp only [hostOps2_1]; after_results_simp
theorem kept_hostOps2_2_arg3 (W : Valuation τ sig (Elt Ideal)) :
    StableHlo.after (hostOps2_2 (F := Ideal)) W (Proc.devRef .tc main_arg3) = W (Proc.devRef .tc main_arg3) := by
  dsimp only [hostOps2_2]; after_results_simp
theorem kept_hostOps0_arg4 (W : Valuation τ sig (Elt Ideal)) :
    StableHlo.after (hostOps0 (F := Ideal)) W (Proc.devRef .tc main_arg4) = W (Proc.devRef .tc main_arg4) := by
  dsimp only [hostOps0]; after_results_simp
theorem kept_hostOps0_1_arg4 (W : Valuation τ sig (Elt Ideal)) :
    StableHlo.after (hostOps0_1 (F := Ideal)) W (Proc.devRef .tc main_arg4) = W (Proc.devRef .tc main_arg4) := by
  dsimp only [hostOps0_1]; after_results_simp
theorem kept_hostOps0_2_arg4 (W : Valuation τ sig (Elt Ideal)) :
    StableHlo.after (hostOps0_2 (F := Ideal)) W (Proc.devRef .tc main_arg4) = W (Proc.devRef .tc main_arg4) := by
  dsimp only [hostOps0_2]; after_results_simp
theorem kept_hostOps1_arg4 (W : Valuation τ sig (Elt Ideal)) :
    StableHlo.after (hostOps1 (F := Ideal)) W (Proc.devRef .tc main_arg4) = W (Proc.devRef .tc main_arg4) := by
  dsimp only [hostOps1]; after_results_simp
theorem kept_hostOps2_arg4 (W : Valuation τ sig (Elt Ideal)) :
    StableHlo.after (hostOps2 (F := Ideal)) W (Proc.devRef .tc main_arg4) = W (Proc.devRef .tc main_arg4) := by
  dsimp only [hostOps2]; after_results_simp
theorem kept_hostOps2_1_arg4 (W : Valuation τ sig (Elt Ideal)) :
    StableHlo.after (hostOps2_1 (F := Ideal)) W (Proc.devRef .tc main_arg4) = W (Proc.devRef .tc main_arg4) := by
  dsimp only [hostOps2_1]; after_results_simp
theorem kept_hostOps2_2_arg4 (W : Valuation τ sig (Elt Ideal)) :
    StableHlo.after (hostOps2_2 (F := Ideal)) W (Proc.devRef .tc main_arg4) = W (Proc.devRef .tc main_arg4) := by
  dsimp only [hostOps2_2]; after_results_simp
theorem kept_hostOps0_1_v2 (W : Valuation τ sig (Elt Ideal)) :
    StableHlo.after (hostOps0_1 (F := Ideal)) W (Proc.devRef .tc main_v2) = W (Proc.devRef .tc main_v2) := by
  dsimp only [hostOps0_1]; after_results_simp
theorem kept_hostOps0_2_v2 (W : Valuation τ sig (Elt Ideal)) :
    StableHlo.after (hostOps0_2 (F := Ideal)) W (Proc.devRef .tc main_v2) = W (Proc.devRef .tc main_v2) := by
  dsimp only [hostOps0_2]; after_results_simp
theorem kept_hostOps1_v2 (W : Valuation τ sig (Elt Ideal)) :
    StableHlo.after (hostOps1 (F := Ideal)) W (Proc.devRef .tc main_v2) = W (Proc.devRef .tc main_v2) := by
  dsimp only [hostOps1]; after_results_simp
theorem kept_hostOps2_v2 (W : Valuation τ sig (Elt Ideal)) :
    StableHlo.after (hostOps2 (F := Ideal)) W (Proc.devRef .tc main_v2) = W (Proc.devRef .tc main_v2) := by
  dsimp only [hostOps2]; after_results_simp
theorem kept_hostOps2_1_v2 (W : Valuation τ sig (Elt Ideal)) :
    StableHlo.after (hostOps2_1 (F := Ideal)) W (Proc.devRef .tc main_v2) = W (Proc.devRef .tc main_v2) := by
  dsimp only [hostOps2_1]; after_results_simp
theorem kept_hostOps2_2_v2 (W : Valuation τ sig (Elt Ideal)) :
    StableHlo.after (hostOps2_2 (F := Ideal)) W (Proc.devRef .tc main_v2) = W (Proc.devRef .tc main_v2) := by
  dsimp only [hostOps2_2]; after_results_simp
theorem kept_hostOps0_1_v4 (W : Valuation τ sig (Elt Ideal)) :
    StableHlo.after (hostOps0_1 (F := Ideal)) W (Proc.devRef .tc main_v4) = W (Proc.devRef .tc main_v4) := by
  dsimp only [hostOps0_1]; after_results_simp
theorem kept_hostOps0_2_v4 (W : Valuation τ sig (Elt Ideal)) :
    StableHlo.after (hostOps0_2 (F := Ideal)) W (Proc.devRef .tc main_v4) = W (Proc.devRef .tc main_v4) := by
  dsimp only [hostOps0_2]; after_results_simp
theorem kept_hostOps1_v4 (W : Valuation τ sig (Elt Ideal)) :
    StableHlo.after (hostOps1 (F := Ideal)) W (Proc.devRef .tc main_v4) = W (Proc.devRef .tc main_v4) := by
  dsimp only [hostOps1]; after_results_simp
theorem kept_hostOps2_v4 (W : Valuation τ sig (Elt Ideal)) :
    StableHlo.after (hostOps2 (F := Ideal)) W (Proc.devRef .tc main_v4) = W (Proc.devRef .tc main_v4) := by
  dsimp only [hostOps2]; after_results_simp
theorem kept_hostOps2_1_v4 (W : Valuation τ sig (Elt Ideal)) :
    StableHlo.after (hostOps2_1 (F := Ideal)) W (Proc.devRef .tc main_v4) = W (Proc.devRef .tc main_v4) := by
  dsimp only [hostOps2_1]; after_results_simp
theorem kept_hostOps2_2_v4 (W : Valuation τ sig (Elt Ideal)) :
    StableHlo.after (hostOps2_2 (F := Ideal)) W (Proc.devRef .tc main_v4) = W (Proc.devRef .tc main_v4) := by
  dsimp only [hostOps2_2]; after_results_simp
theorem kept_hostOps0_2_v14 (W : Valuation τ sig (Elt Ideal)) :
    StableHlo.after (hostOps0_2 (F := Ideal)) W (Proc.devRef .tc main_v14) = W (Proc.devRef .tc main_v14) := by
  dsimp only [hostOps0_2]; after_results_simp
theorem kept_hostOps1_v30 (W : Valuation τ sig (Elt Ideal)) :
    StableHlo.after (hostOps1 (F := Ideal)) W (Proc.devRef .tc main_v30) = W (Proc.devRef .tc main_v30) := by
  dsimp only [hostOps1]; after_results_simp
theorem kept_hostOps2_v47 (W : Valuation τ sig (Elt Ideal)) :
    StableHlo.after (hostOps2 (F := Ideal)) W (Proc.devRef .tc main_v47) = W (Proc.devRef .tc main_v47) := by
  dsimp only [hostOps2]; after_results_simp
theorem kept_hostOps2_1_v47 (W : Valuation τ sig (Elt Ideal)) :
    StableHlo.after (hostOps2_1 (F := Ideal)) W (Proc.devRef .tc main_v47) = W (Proc.devRef .tc main_v47) := by
  dsimp only [hostOps2_1]; after_results_simp
theorem kept_hostOps2_2_v47 (W : Valuation τ sig (Elt Ideal)) :
    StableHlo.after (hostOps2_2 (F := Ideal)) W (Proc.devRef .tc main_v47) = W (Proc.devRef .tc main_v47) := by
  dsimp only [hostOps2_2]; after_results_simp

variable (m : (ℓ : Loc nD τ sig) → Buf (Elt Ideal) ℓ) (ρ : Dev nD → PrngReg) (c : Dev nD)

/-! ### At the launch the argument buffers hold the arguments -/

theorem at0_arg0 : (W0 m ρ c (Proc.devRef .tc main_arg0) : (⟨S100000x128, .f32⟩ : BufTy).Contents (Elt Ideal)) = (m ((c : Thread nD τ).loc main_arg0)) := rfl
theorem at0_arg1 : (W0 m ρ c (Proc.devRef .tc main_arg1) : (⟨S128x128, .f32⟩ : BufTy).Contents (Elt Ideal)) = (m ((c : Thread nD τ).loc main_arg1)) := rfl
theorem at0_arg2 : (W0 m ρ c (Proc.devRef .tc main_arg2) : (⟨S128, .f32⟩ : BufTy).Contents (Elt Ideal)) = (m ((c : Thread nD τ).loc main_arg2)) := rfl
theorem at0_arg3 : (W0 m ρ c (Proc.devRef .tc main_arg3) : (⟨S128x128, .f32⟩ : BufTy).Contents (Elt Ideal)) = (m ((c : Thread nD τ).loc main_arg3)) := rfl
theorem at0_arg4 : (W0 m ρ c (Proc.devRef .tc main_arg4) : (⟨S128, .f32⟩ : BufTy).Contents (Elt Ideal)) = (m ((c : Thread nD τ).loc main_arg4)) := rfl
theorem at0_arg5 : (W0 m ρ c (Proc.devRef .tc main_arg5) : (⟨S2x800000, .i32⟩ : BufTy).Contents (Elt Ideal)) = (m ((c : Thread nD τ).loc main_arg5)) := rfl
theorem at0_arg6 : (W0 m ρ c (Proc.devRef .tc main_arg6) : (⟨S2x800000, .i32⟩ : BufTy).Contents (Elt Ideal)) = (m ((c : Thread nD τ).loc main_arg6)) := rfl

/-! ### Before the first projection: the edge lists, the degrees and the edge weights -/

theorem at1_arg0 : (W1 m ρ c (Proc.devRef .tc main_arg0) : (⟨S100000x128, .f32⟩ : BufTy).Contents (Elt Ideal)) = (m ((c : Thread nD τ).loc main_arg0)) :=
  (kept_hostOps0_arg0 (W0 m ρ c)).trans (at0_arg0 m ρ c)
theorem at2_arg0 : (W2 m ρ c (Proc.devRef .tc main_arg0) : (⟨S100000x128, .f32⟩ : BufTy).Contents (Elt Ideal)) = (m ((c : Thread nD τ).loc main_arg0)) :=
  (kept_hostOps0_1_arg0 (W1 m ρ c)).trans (at1_arg0 m ρ c)
theorem at3_arg0 : (W3 m ρ c (Proc.devRef .tc main_arg0) : (⟨S100000x128, .f32⟩ : BufTy).Contents (Elt Ideal)) = (m ((c : Thread nD τ).loc main_arg0)) :=
  (kept_hostOps0_2_arg0 (W2 m ρ c)).trans (at2_arg0 m ρ c)
theorem at1_arg1 : (W1 m ρ c (Proc.devRef .tc main_arg1) : (⟨S128x128, .f32⟩ : BufTy).Contents (Elt Ideal)) = (m ((c : Thread nD τ).loc main_arg1)) :=
  (kept_hostOps0_arg1 (W0 m ρ c)).trans (at0_arg1 m ρ c)
theorem at2_arg1 : (W2 m ρ c (Proc.devRef .tc main_arg1) : (⟨S128x128, .f32⟩ : BufTy).Contents (Elt Ideal)) = (m ((c : Thread nD τ).loc main_arg1)) :=
  (kept_hostOps0_1_arg1 (W1 m ρ c)).trans (at1_arg1 m ρ c)
theorem at3_arg1 : (W3 m ρ c (Proc.devRef .tc main_arg1) : (⟨S128x128, .f32⟩ : BufTy).Contents (Elt Ideal)) = (m ((c : Thread nD τ).loc main_arg1)) :=
  (kept_hostOps0_2_arg1 (W2 m ρ c)).trans (at2_arg1 m ρ c)
theorem at1_arg2 : (W1 m ρ c (Proc.devRef .tc main_arg2) : (⟨S128, .f32⟩ : BufTy).Contents (Elt Ideal)) = (m ((c : Thread nD τ).loc main_arg2)) :=
  (kept_hostOps0_arg2 (W0 m ρ c)).trans (at0_arg2 m ρ c)
theorem at2_arg2 : (W2 m ρ c (Proc.devRef .tc main_arg2) : (⟨S128, .f32⟩ : BufTy).Contents (Elt Ideal)) = (m ((c : Thread nD τ).loc main_arg2)) :=
  (kept_hostOps0_1_arg2 (W1 m ρ c)).trans (at1_arg2 m ρ c)
theorem at3_arg2 : (W3 m ρ c (Proc.devRef .tc main_arg2) : (⟨S128, .f32⟩ : BufTy).Contents (Elt Ideal)) = (m ((c : Thread nD τ).loc main_arg2)) :=
  (kept_hostOps0_2_arg2 (W2 m ρ c)).trans (at2_arg2 m ρ c)
theorem at4_arg2 : (W4 m ρ c (Proc.devRef .tc main_arg2) : (⟨S128, .f32⟩ : BufTy).Contents (Elt Ideal)) = (m ((c : Thread nD τ).loc main_arg2)) :=
  (W4_of_ne m ρ c main_arg2 (by decide)).trans (at3_arg2 m ρ c)
theorem at1_arg3 : (W1 m ρ c (Proc.devRef .tc main_arg3) : (⟨S128x128, .f32⟩ : BufTy).Contents (Elt Ideal)) = (m ((c : Thread nD τ).loc main_arg3)) :=
  (kept_hostOps0_arg3 (W0 m ρ c)).trans (at0_arg3 m ρ c)
theorem at2_arg3 : (W2 m ρ c (Proc.devRef .tc main_arg3) : (⟨S128x128, .f32⟩ : BufTy).Contents (Elt Ideal)) = (m ((c : Thread nD τ).loc main_arg3)) :=
  (kept_hostOps0_1_arg3 (W1 m ρ c)).trans (at1_arg3 m ρ c)
theorem at3_arg3 : (W3 m ρ c (Proc.devRef .tc main_arg3) : (⟨S128x128, .f32⟩ : BufTy).Contents (Elt Ideal)) = (m ((c : Thread nD τ).loc main_arg3)) :=
  (kept_hostOps0_2_arg3 (W2 m ρ c)).trans (at2_arg3 m ρ c)
theorem at4_arg3 : (W4 m ρ c (Proc.devRef .tc main_arg3) : (⟨S128x128, .f32⟩ : BufTy).Contents (Elt Ideal)) = (m ((c : Thread nD τ).loc main_arg3)) :=
  (W4_of_ne m ρ c main_arg3 (by decide)).trans (at3_arg3 m ρ c)
theorem at5_arg3 : (W5 m ρ c (Proc.devRef .tc main_arg3) : (⟨S128x128, .f32⟩ : BufTy).Contents (Elt Ideal)) = (m ((c : Thread nD τ).loc main_arg3)) :=
  (kept_hostOps1_arg3 (W4 m ρ c)).trans (at4_arg3 m ρ c)
theorem at6_arg3 : (W6 m ρ c (Proc.devRef .tc main_arg3) : (⟨S128x128, .f32⟩ : BufTy).Contents (Elt Ideal)) = (m ((c : Thread nD τ).loc main_arg3)) :=
  (W6_of_ne m ρ c main_arg3 (by decide)).trans (at5_arg3 m ρ c)
theorem at7_arg3 : (W7 m ρ c (Proc.devRef .tc main_arg3) : (⟨S128x128, .f32⟩ : BufTy).Contents (Elt Ideal)) = (m ((c : Thread nD τ).loc main_arg3)) :=
  (kept_hostOps2_arg3 (W6 m ρ c)).trans (at6_arg3 m ρ c)
theorem at8_arg3 : (W8 m ρ c (Proc.devRef .tc main_arg3) : (⟨S128x128, .f32⟩ : BufTy).Contents (Elt Ideal)) = (m ((c : Thread nD τ).loc main_arg3)) :=
  (kept_hostOps2_1_arg3 (W7 m ρ c)).trans (at7_arg3 m ρ c)
theorem at9_arg3 : (W9 m ρ c (Proc.devRef .tc main_arg3) : (⟨S128x128, .f32⟩ : BufTy).Contents (Elt Ideal)) = (m ((c : Thread nD τ).loc main_arg3)) :=
  (kept_hostOps2_2_arg3 (W8 m ρ c)).trans (at8_arg3 m ρ c)
theorem at1_arg4 : (W1 m ρ c (Proc.devRef .tc main_arg4) : (⟨S128, .f32⟩ : BufTy).Contents (Elt Ideal)) = (m ((c : Thread nD τ).loc main_arg4)) :=
  (kept_hostOps0_arg4 (W0 m ρ c)).trans (at0_arg4 m ρ c)
theorem at2_arg4 : (W2 m ρ c (Proc.devRef .tc main_arg4) : (⟨S128, .f32⟩ : BufTy).Contents (Elt Ideal)) = (m ((c : Thread nD τ).loc main_arg4)) :=
  (kept_hostOps0_1_arg4 (W1 m ρ c)).trans (at1_arg4 m ρ c)
theorem at3_arg4 : (W3 m ρ c (Proc.devRef .tc main_arg4) : (⟨S128, .f32⟩ : BufTy).Contents (Elt Ideal)) = (m ((c : Thread nD τ).loc main_arg4)) :=
  (kept_hostOps0_2_arg4 (W2 m ρ c)).trans (at2_arg4 m ρ c)
theorem at4_arg4 : (W4 m ρ c (Proc.devRef .tc main_arg4) : (⟨S128, .f32⟩ : BufTy).Contents (Elt Ideal)) = (m ((c : Thread nD τ).loc main_arg4)) :=
  (W4_of_ne m ρ c main_arg4 (by decide)).trans (at3_arg4 m ρ c)
theorem at5_arg4 : (W5 m ρ c (Proc.devRef .tc main_arg4) : (⟨S128, .f32⟩ : BufTy).Contents (Elt Ideal)) = (m ((c : Thread nD τ).loc main_arg4)) :=
  (kept_hostOps1_arg4 (W4 m ρ c)).trans (at4_arg4 m ρ c)
theorem at6_arg4 : (W6 m ρ c (Proc.devRef .tc main_arg4) : (⟨S128, .f32⟩ : BufTy).Contents (Elt Ideal)) = (m ((c : Thread nD τ).loc main_arg4)) :=
  (W6_of_ne m ρ c main_arg4 (by decide)).trans (at5_arg4 m ρ c)
theorem at7_arg4 : (W7 m ρ c (Proc.devRef .tc main_arg4) : (⟨S128, .f32⟩ : BufTy).Contents (Elt Ideal)) = (m ((c : Thread nD τ).loc main_arg4)) :=
  (kept_hostOps2_arg4 (W6 m ρ c)).trans (at6_arg4 m ρ c)
theorem at8_arg4 : (W8 m ρ c (Proc.devRef .tc main_arg4) : (⟨S128, .f32⟩ : BufTy).Contents (Elt Ideal)) = (m ((c : Thread nD τ).loc main_arg4)) :=
  (kept_hostOps2_1_arg4 (W7 m ρ c)).trans (at7_arg4 m ρ c)
theorem at9_arg4 : (W9 m ρ c (Proc.devRef .tc main_arg4) : (⟨S128, .f32⟩ : BufTy).Contents (Elt Ideal)) = (m ((c : Thread nD τ).loc main_arg4)) :=
  (kept_hostOps2_2_arg4 (W8 m ρ c)).trans (at8_arg4 m ρ c)
theorem at10_arg4 : (W10 m ρ c (Proc.devRef .tc main_arg4) : (⟨S128, .f32⟩ : BufTy).Contents (Elt Ideal)) = (m ((c : Thread nD τ).loc main_arg4)) :=
  (W10_of_ne m ρ c main_arg4 (by decide)).trans (at9_arg4 m ρ c)
set_option maxHeartbeats 4000000 in
set_option maxRecDepth 65536 in
theorem at1_v2 : (W1 m ρ c (Proc.devRef .tc main_v2) : (⟨S1600000, .i32⟩ : BufTy).Contents (Elt Ideal)) = val_main_v2 (F := Ideal) (m ((c : Thread nD τ).loc main_arg5)) (m ((c : Thread nD τ).loc main_arg6)) := by
  have h0 := at0_arg5 m ρ c
  have h1 := at0_arg6 m ρ c
  show StableHlo.after (hostOps0 (F := Ideal)) (W0 m ρ c) (Proc.devRef .tc main_v2) = _
  generalize W0 m ρ c = W at h0 h1 ⊢
  dsimp only [hostOps0]
  after_results_simp
  rw [h0, h1]
  rfl
set_option maxHeartbeats 4000000 in
set_option maxRecDepth 65536 in
theorem at1_v4 : (W1 m ρ c (Proc.devRef .tc main_v4) : (⟨S1600000, .i32⟩ : BufTy).Contents (Elt Ideal)) = val_main_v4 (F := Ideal) (m ((c : Thread nD τ).loc main_arg5)) (m ((c : Thread nD τ).loc main_arg6)) := by
  have h0 := at0_arg5 m ρ c
  have h1 := at0_arg6 m ρ c
  show StableHlo.after (hostOps0 (F := Ideal)) (W0 m ρ c) (Proc.devRef .tc main_v4) = _
  generalize W0 m ρ c = W at h0 h1 ⊢
  dsimp only [hostOps0]
  after_results_simp
  rw [h0, h1]
  rfl
set_option maxHeartbeats 4000000 in
set_option maxRecDepth 65536 in
theorem at1_v12 : (W1 m ρ c (Proc.devRef .tc main_v12) : (⟨S100000, .i1⟩ : BufTy).Contents (Elt Ideal)) = val_main_v12 (F := Ideal) (m ((c : Thread nD τ).loc main_arg5)) (m ((c : Thread nD τ).loc main_arg6)) := by
  have h0 := at0_arg5 m ρ c
  have h1 := at0_arg6 m ρ c
  show StableHlo.after (hostOps0 (F := Ideal)) (W0 m ρ c) (Proc.devRef .tc main_v12) = _
  generalize W0 m ρ c = W at h0 h1 ⊢
  dsimp only [hostOps0]
  after_results_simp
  rw [h0, h1]
  rfl
set_option maxHeartbeats 4000000 in
set_option maxRecDepth 65536 in
theorem at1_v13 : (W1 m ρ c (Proc.devRef .tc main_v13) : (⟨S100000, .f32⟩ : BufTy).Contents (Elt Ideal)) = val_main_v13 (F := Ideal) (m ((c : Thread nD τ).loc main_arg5)) (m ((c : Thread nD τ).loc main_arg6)) := by
  have h0 := at0_arg5 m ρ c
  have h1 := at0_arg6 m ρ c
  show StableHlo.after (hostOps0 (F := Ideal)) (W0 m ρ c) (Proc.devRef .tc main_v13) = _
  generalize W0 m ρ c = W at h0 h1 ⊢
  dsimp only [hostOps0]
  after_results_simp
  rw [h0, h1]
  rfl
set_option maxHeartbeats 4000000 in
set_option maxRecDepth 65536 in
theorem at1_cst_3 : (W1 m ρ c (Proc.devRef .tc main_cst_3) : (⟨S_, .f32⟩ : BufTy).Contents (Elt Ideal)) = val_main_cst_3 (F := Ideal) := by
  show StableHlo.after (hostOps0 (F := Ideal)) (W0 m ρ c) (Proc.devRef .tc main_cst_3) = _
  generalize W0 m ρ c = W
  dsimp only [hostOps0]
  after_results_simp
  rfl
theorem at2_v2 : (W2 m ρ c (Proc.devRef .tc main_v2) : (⟨S1600000, .i32⟩ : BufTy).Contents (Elt Ideal)) = val_main_v2 (F := Ideal) (m ((c : Thread nD τ).loc main_arg5)) (m ((c : Thread nD τ).loc main_arg6)) :=
  (kept_hostOps0_1_v2 (W1 m ρ c)).trans (at1_v2 m ρ c)
theorem at3_v2 : (W3 m ρ c (Proc.devRef .tc main_v2) : (⟨S1600000, .i32⟩ : BufTy).Contents (Elt Ideal)) = val_main_v2 (F := Ideal) (m ((c : Thread nD τ).loc main_arg5)) (m ((c : Thread nD τ).loc main_arg6)) :=
  (kept_hostOps0_2_v2 (W2 m ρ c)).trans (at2_v2 m ρ c)
theorem at4_v2 : (W4 m ρ c (Proc.devRef .tc main_v2) : (⟨S1600000, .i32⟩ : BufTy).Contents (Elt Ideal)) = val_main_v2 (F := Ideal) (m ((c : Thread nD τ).loc main_arg5)) (m ((c : Thread nD τ).loc main_arg6)) :=
  (W4_of_ne m ρ c main_v2 (by decide)).trans (at3_v2 m ρ c)
theorem at5_v2 : (W5 m ρ c (Proc.devRef .tc main_v2) : (⟨S1600000, .i32⟩ : BufTy).Contents (Elt Ideal)) = val_main_v2 (F := Ideal) (m ((c : Thread nD τ).loc main_arg5)) (m ((c : Thread nD τ).loc main_arg6)) :=
  (kept_hostOps1_v2 (W4 m ρ c)).trans (at4_v2 m ρ c)
theorem at6_v2 : (W6 m ρ c (Proc.devRef .tc main_v2) : (⟨S1600000, .i32⟩ : BufTy).Contents (Elt Ideal)) = val_main_v2 (F := Ideal) (m ((c : Thread nD τ).loc main_arg5)) (m ((c : Thread nD τ).loc main_arg6)) :=
  (W6_of_ne m ρ c main_v2 (by decide)).trans (at5_v2 m ρ c)
theorem at7_v2 : (W7 m ρ c (Proc.devRef .tc main_v2) : (⟨S1600000, .i32⟩ : BufTy).Contents (Elt Ideal)) = val_main_v2 (F := Ideal) (m ((c : Thread nD τ).loc main_arg5)) (m ((c : Thread nD τ).loc main_arg6)) :=
  (kept_hostOps2_v2 (W6 m ρ c)).trans (at6_v2 m ρ c)
theorem at8_v2 : (W8 m ρ c (Proc.devRef .tc main_v2) : (⟨S1600000, .i32⟩ : BufTy).Contents (Elt Ideal)) = val_main_v2 (F := Ideal) (m ((c : Thread nD τ).loc main_arg5)) (m ((c : Thread nD τ).loc main_arg6)) :=
  (kept_hostOps2_1_v2 (W7 m ρ c)).trans (at7_v2 m ρ c)
theorem at9_v2 : (W9 m ρ c (Proc.devRef .tc main_v2) : (⟨S1600000, .i32⟩ : BufTy).Contents (Elt Ideal)) = val_main_v2 (F := Ideal) (m ((c : Thread nD τ).loc main_arg5)) (m ((c : Thread nD τ).loc main_arg6)) :=
  (kept_hostOps2_2_v2 (W8 m ρ c)).trans (at8_v2 m ρ c)
theorem at10_v2 : (W10 m ρ c (Proc.devRef .tc main_v2) : (⟨S1600000, .i32⟩ : BufTy).Contents (Elt Ideal)) = val_main_v2 (F := Ideal) (m ((c : Thread nD τ).loc main_arg5)) (m ((c : Thread nD τ).loc main_arg6)) :=
  (W10_of_ne m ρ c main_v2 (by decide)).trans (at9_v2 m ρ c)
theorem at2_v4 : (W2 m ρ c (Proc.devRef .tc main_v4) : (⟨S1600000, .i32⟩ : BufTy).Contents (Elt Ideal)) = val_main_v4 (F := Ideal) (m ((c : Thread nD τ).loc main_arg5)) (m ((c : Thread nD τ).loc main_arg6)) :=
  (kept_hostOps0_1_v4 (W1 m ρ c)).trans (at1_v4 m ρ c)
theorem at3_v4 : (W3 m ρ c (Proc.devRef .tc main_v4) : (⟨S1600000, .i32⟩ : BufTy).Contents (Elt Ideal)) = val_main_v4 (F := Ideal) (m ((c : Thread nD τ).loc main_arg5)) (m ((c : Thread nD τ).loc main_arg6)) :=
  (kept_hostOps0_2_v4 (W2 m ρ c)).trans (at2_v4 m ρ c)
theorem at4_v4 : (W4 m ρ c (Proc.devRef .tc main_v4) : (⟨S1600000, .i32⟩ : BufTy).Contents (Elt Ideal)) = val_main_v4 (F := Ideal) (m ((c : Thread nD τ).loc main_arg5)) (m ((c : Thread nD τ).loc main_arg6)) :=
  (W4_of_ne m ρ c main_v4 (by decide)).trans (at3_v4 m ρ c)
theorem at5_v4 : (W5 m ρ c (Proc.devRef .tc main_v4) : (⟨S1600000, .i32⟩ : BufTy).Contents (Elt Ideal)) = val_main_v4 (F := Ideal) (m ((c : Thread nD τ).loc main_arg5)) (m ((c : Thread nD τ).loc main_arg6)) :=
  (kept_hostOps1_v4 (W4 m ρ c)).trans (at4_v4 m ρ c)
theorem at6_v4 : (W6 m ρ c (Proc.devRef .tc main_v4) : (⟨S1600000, .i32⟩ : BufTy).Contents (Elt Ideal)) = val_main_v4 (F := Ideal) (m ((c : Thread nD τ).loc main_arg5)) (m ((c : Thread nD τ).loc main_arg6)) :=
  (W6_of_ne m ρ c main_v4 (by decide)).trans (at5_v4 m ρ c)
theorem at7_v4 : (W7 m ρ c (Proc.devRef .tc main_v4) : (⟨S1600000, .i32⟩ : BufTy).Contents (Elt Ideal)) = val_main_v4 (F := Ideal) (m ((c : Thread nD τ).loc main_arg5)) (m ((c : Thread nD τ).loc main_arg6)) :=
  (kept_hostOps2_v4 (W6 m ρ c)).trans (at6_v4 m ρ c)
theorem at8_v4 : (W8 m ρ c (Proc.devRef .tc main_v4) : (⟨S1600000, .i32⟩ : BufTy).Contents (Elt Ideal)) = val_main_v4 (F := Ideal) (m ((c : Thread nD τ).loc main_arg5)) (m ((c : Thread nD τ).loc main_arg6)) :=
  (kept_hostOps2_1_v4 (W7 m ρ c)).trans (at7_v4 m ρ c)
theorem at9_v4 : (W9 m ρ c (Proc.devRef .tc main_v4) : (⟨S1600000, .i32⟩ : BufTy).Contents (Elt Ideal)) = val_main_v4 (F := Ideal) (m ((c : Thread nD τ).loc main_arg5)) (m ((c : Thread nD τ).loc main_arg6)) :=
  (kept_hostOps2_2_v4 (W8 m ρ c)).trans (at8_v4 m ρ c)
theorem at10_v4 : (W10 m ρ c (Proc.devRef .tc main_v4) : (⟨S1600000, .i32⟩ : BufTy).Contents (Elt Ideal)) = val_main_v4 (F := Ideal) (m ((c : Thread nD τ).loc main_arg5)) (m ((c : Thread nD τ).loc main_arg6)) :=
  (W10_of_ne m ρ c main_v4 (by decide)).trans (at9_v4 m ρ c)
theorem at2_v14 : (W2 m ρ c (Proc.devRef .tc main_v14) : (⟨S100000, .f32⟩ : BufTy).Contents (Elt Ideal)) = val_main_v14 (F := Ideal) (m ((c : Thread nD τ).loc main_arg5)) (m ((c : Thread nD τ).loc main_arg6)) :=
  (where_first (W1 m ρ c) _ _ _ (at1_v12 m ρ c) (at1_v13 m ρ c) (at1_cst_3 m ρ c)).trans rfl
theorem at3_v14 : (W3 m ρ c (Proc.devRef .tc main_v14) : (⟨S100000, .f32⟩ : BufTy).Contents (Elt Ideal)) = val_main_v14 (F := Ideal) (m ((c : Thread nD τ).loc main_arg5)) (m ((c : Thread nD τ).loc main_arg6)) :=
  (kept_hostOps0_2_v14 (W2 m ρ c)).trans (at2_v14 m ρ c)
theorem at4_v14 : (W4 m ρ c (Proc.devRef .tc main_v14) : (⟨S100000, .f32⟩ : BufTy).Contents (Elt Ideal)) = val_main_v14 (F := Ideal) (m ((c : Thread nD τ).loc main_arg5)) (m ((c : Thread nD τ).loc main_arg6)) :=
  (W4_of_ne m ρ c main_v14 (by decide)).trans (at3_v14 m ρ c)
set_option maxHeartbeats 4000000 in
set_option maxRecDepth 65536 in
theorem at3_v29 : (W3 m ρ c (Proc.devRef .tc main_v29) : (⟨S1600000, .f32⟩ : BufTy).Contents (Elt Ideal)) = val_main_v29 (F := Ideal) (m ((c : Thread nD τ).loc main_arg5)) (m ((c : Thread nD τ).loc main_arg6)) := by
  have h0 := at2_v14 m ρ c
  have h1 := at2_v2 m ρ c
  have h2 := at2_v4 m ρ c
  show StableHlo.after (hostOps0_2 (F := Ideal)) (W2 m ρ c) (Proc.devRef .tc main_v29) = _
  generalize W2 m ρ c = W at h0 h1 h2 ⊢
  dsimp only [hostOps0_2]
  after_results_simp
  rw [h0, h1, h2]
  rfl
theorem at4_v29 : (W4 m ρ c (Proc.devRef .tc main_v29) : (⟨S1600000, .f32⟩ : BufTy).Contents (Elt Ideal)) = val_main_v29 (F := Ideal) (m ((c : Thread nD τ).loc main_arg5)) (m ((c : Thread nD τ).loc main_arg6)) :=
  (W4_of_ne m ρ c main_v29 (by decide)).trans (at3_v29 m ρ c)

/-! ### The first projection, the first aggregation and the first combination -/

theorem at4_v30 : (W4 m ρ c (Proc.devRef .tc main_v30) : (⟨S100000x128, .f32⟩ : BufTy).Contents (Elt Ideal)) = val_main_v30 (F := Ideal) (m ((c : Thread nD τ).loc main_arg0)) (m ((c : Thread nD τ).loc main_arg1)) :=
  (W4_arr m ρ c 2).trans ((projected0 (V3 m ρ) c).trans
    ((congr (congrArg GcnSpec.project (at3_arg0 m ρ c)) (at3_arg1 m ρ c)).trans (Cert.ReferenceIdeal.Hand.product_eq_project _ _).symm))
theorem at5_v30 : (W5 m ρ c (Proc.devRef .tc main_v30) : (⟨S100000x128, .f32⟩ : BufTy).Contents (Elt Ideal)) = val_main_v30 (F := Ideal) (m ((c : Thread nD τ).loc main_arg0)) (m ((c : Thread nD τ).loc main_arg1)) :=
  (kept_hostOps1_v30 (W4 m ρ c)).trans (at4_v30 m ρ c)
set_option maxHeartbeats 4000000 in
set_option maxRecDepth 65536 in
theorem at5_v43 : (W5 m ρ c (Proc.devRef .tc main_v43) : (⟨S100000x128, .f32⟩ : BufTy).Contents (Elt Ideal)) = val_main_v43 (F := Ideal) (m ((c : Thread nD τ).loc main_arg0)) (m ((c : Thread nD τ).loc main_arg1)) (m ((c : Thread nD τ).loc main_arg5)) (m ((c : Thread nD τ).loc main_arg6)) := by
  have h0 := at4_v29 m ρ c
  have h1 := at4_v2 m ρ c
  have h2 := at4_v4 m ρ c
  have h3 := at4_v30 m ρ c
  show StableHlo.after (hostOps1 (F := Ideal)) (W4 m ρ c) (Proc.devRef .tc main_v43) = _
  generalize W4 m ρ c = W at h0 h1 h2 h3 ⊢
  dsimp only [hostOps1]
  after_results_simp
  rw [h0, h1, h2, h3]
  rfl
set_option maxHeartbeats 4000000 in
set_option maxRecDepth 65536 in
theorem at5_v45 : (W5 m ρ c (Proc.devRef .tc main_v45) : (⟨S100000x1, .f32⟩ : BufTy).Contents (Elt Ideal)) = val_main_v45 (F := Ideal) (m ((c : Thread nD τ).loc main_arg5)) (m ((c : Thread nD τ).loc main_arg6)) := by
  have h0 := at4_v14 m ρ c
  show StableHlo.after (hostOps1 (F := Ideal)) (W4 m ρ c) (Proc.devRef .tc main_v45) = _
  generalize W4 m ρ c = W at h0 ⊢
  dsimp only [hostOps1]
  after_results_simp
  rw [h0]
  rfl
set_option maxHeartbeats 4000000 in
set_option maxRecDepth 65536 in
theorem at5_v46 : (W5 m ρ c (Proc.devRef .tc main_v46) : (⟨S1x128, .f32⟩ : BufTy).Contents (Elt Ideal)) = val_main_v49 (F := Ideal) (m ((c : Thread nD τ).loc main_arg2)) := by
  have h0 := at4_arg2 m ρ c
  show StableHlo.after (hostOps1 (F := Ideal)) (W4 m ρ c) (Proc.devRef .tc main_v46) = _
  generalize W4 m ρ c = W at h0 ⊢
  dsimp only [hostOps1]
  after_results_simp
  rw [h0]
  exact biasRow_eq _
/-- The first layer's output in the kernel's program is the reference's. -/
theorem at6_v47 : (W6 m ρ c (Proc.devRef .tc main_v47) : (⟨S100000x128, .f32⟩ : BufTy).Contents (Elt Ideal)) = val_main_v51 (F := Ideal) (m ((c : Thread nD τ).loc main_arg0)) (m ((c : Thread nD τ).loc main_arg1)) (m ((c : Thread nD τ).loc main_arg2)) (m ((c : Thread nD τ).loc main_arg5)) (m ((c : Thread nD τ).loc main_arg6)) :=
  (W6_arr m ρ c 4).trans ((combined1 (V5 m ρ) c).trans
    ((congr (congr (congr (congrArg GcnSpec.combine (at5_v43 m ρ c)) (at5_v30 m ρ c)) (at5_v45 m ρ c)) (at5_v46 m ρ c)).trans (Cert.ReferenceIdeal.Hand.layer1_eq _ _ _ _ _).symm))
theorem at7_v47 : (W7 m ρ c (Proc.devRef .tc main_v47) : (⟨S100000x128, .f32⟩ : BufTy).Contents (Elt Ideal)) = val_main_v51 (F := Ideal) (m ((c : Thread nD τ).loc main_arg0)) (m ((c : Thread nD τ).loc main_arg1)) (m ((c : Thread nD τ).loc main_arg2)) (m ((c : Thread nD τ).loc main_arg5)) (m ((c : Thread nD τ).loc main_arg6)) :=
  (kept_hostOps2_v47 (W6 m ρ c)).trans (at6_v47 m ρ c)
theorem at8_v47 : (W8 m ρ c (Proc.devRef .tc main_v47) : (⟨S100000x128, .f32⟩ : BufTy).Contents (Elt Ideal)) = val_main_v51 (F := Ideal) (m ((c : Thread nD τ).loc main_arg0)) (m ((c : Thread nD τ).loc main_arg1)) (m ((c : Thread nD τ).loc main_arg2)) (m ((c : Thread nD τ).loc main_arg5)) (m ((c : Thread nD τ).loc main_arg6)) :=
  (kept_hostOps2_1_v47 (W7 m ρ c)).trans (at7_v47 m ρ c)
theorem at9_v47 : (W9 m ρ c (Proc.devRef .tc main_v47) : (⟨S100000x128, .f32⟩ : BufTy).Contents (Elt Ideal)) = val_main_v51 (F := Ideal) (m ((c : Thread nD τ).loc main_arg0)) (m ((c : Thread nD τ).loc main_arg1)) (m ((c : Thread nD τ).loc main_arg2)) (m ((c : Thread nD τ).loc main_arg5)) (m ((c : Thread nD τ).loc main_arg6)) :=
  (kept_hostOps2_2_v47 (W8 m ρ c)).trans (at8_v47 m ρ c)

end Cert.KernelIdeal.Hand

end
-- ==== Proof.ProjectSecond.lean ====
/-
  The second layer's projection region: the array it leaves is the whole product.

  The grid has 20 points; point t reads rows 5000·t … 5000·t + 4999 of the node features and the whole weight
  matrix, and writes the same rows of the result.  Entry (p, q) of what it writes is the sum over k of the block's
  (p, k) entry times the weights' (k, q) entry, and the block's (p, k) entry is the features' (5000·t + p, k) entry:
  so the block written is the same rows of the whole product.  Every row lies in exactly the block of the point
  t = row / 5000, so the blocks cover the array.
-/
import proofs.«178049_j20804821581912_1_alg».proof.Proof.Gen.KernelIdeal.Frame
import proofs.«178049_j20804821581912_1_alg».proof.Proof.BlockBodies
import proofs.«178049_j20804821581912_1_alg».proof.Proof.GcnSpec
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets2 : (![0, 0] : Fin 2 → Nat) = fun _ => 0 := funext fun a => by fin_cases a <;> rfl

/-- The three index maps, decided once over the grid: the features' and the result's block is the point's own, in
    the only column of blocks; the weights' block is the one block there is. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The features' block at point t, at (p, k): the features at (5000·t + p, k). -/
theorem featuresBlock2 (c : Dev nD) (t : Fin cfg2.N) (p : Fin 5000) (k : Fin 128) (r : Fin 100000) (hr : r.val = t.val * 5000 + p.val) :
    (iblk2 V c 0 t : Vec Ideal S5000x128 .f32) (ix2 p k) = (V c main_v47 : S100000x128.Idx → EReal) (ix2 r k) := by
  obtain ⟨e0, e1, -⟩ := blockIndex2 t
  show (V c main_v47 : S100000x128.Idx → EReal) (((cfg2.win 0).blk t).view.emb (ix2 p k)) = _
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The weights' block at any point is the weights. -/
theorem weightsBlock2 (c : Dev nD) (t : Fin cfg2.N) (k : Fin 128) (q : Fin 128) :
    (iblk2 V c 1 t : Vec Ideal S128x128 .f32) (ix2 k q) = (V c main_arg3 : S128x128.Idx → EReal) (ix2 k q) := by
  obtain ⟨-, -, e2, e3, -⟩ := blockIndex2 t
  show (V c main_arg3 : S128x128.Idx → EReal) (((cfg2.win 1).blk t).view.emb (ix2 k q)) = _
  refine congrArg _ (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

/-- What point t writes back is its rows of the whole product. -/
theorem written2 (c : Dev nD) (t : Fin cfg2.N) :
    (dat2 V c).flushed 2 t = ((cfg2.win 2).blk t).view.read (Elt Ideal)
      (GcnSpec.project (V c main_v47) (V c main_arg3)) := by
  show (cfg2.win 2).cut (grid2.coords t) ((dat2 V c).after 2 t) = _
  rw [after2_2]
  unfold out2_2
  rw [View.canon_unit_zero zeroOffsets2]
  simp only [View.ld_unit_zero (S := S5000x128) zeroOffsets2, View.ld_unit_zero (S := S128x128) zeroOffsets2]
  funext j
  obtain ⟨p, q, rfl⟩ : ∃ (p : Fin 5000) (q : Fin 128), j = ix2 p q := ⟨j 0, j 1, eq_ix2 j⟩
  obtain ⟨-, -, -, -, e4, e5⟩ := blockIndex2 t
  have ht : t.val < 20 := Nat.lt_of_lt_of_eq t.isLt N_2
  obtain ⟨r, hr⟩ : ∃ r : Fin 100000, r.val = t.val * 5000 + p.val := ⟨⟨t.val * 5000 + p.val, by have := p.isLt; omega⟩, rfl⟩
  have hemb : ((cfg2.win 2).blk t).view.emb (ix2 p q) = (ix2 r q : S100000x128.Idx) := funext fun a => Fin.ext (by
    match a with
    | ⟨0, _⟩ => show win2_2.index t (0 : Fin 2) * 5000 + 1 * p.val = r.val; omega
    | ⟨1, _⟩ => show win2_2.index t (1 : Fin 2) * 128 + 1 * q.val = q.val; omega)
  show k2_pay1 (F := Ideal) (iblk2 V c 0 t) (iblk2 V c 1 t) (ix2 p q)
    = GcnSpec.project (V c main_v47) (V c main_arg3) (((cfg2.win 2).blk t).view.emb (ix2 p q))
  rw [hemb]
  refine (projectBody2_apply (iblk2 V c 0 t) (iblk2 V c 1 t) p q).trans ?_
  refine (Finset.sum_congr rfl fun k _ => ?_).trans (GcnSpec.project_apply _ _ r q).symm
  exact congr (congrArg _ (featuresBlock2 V c t p k r hr)) (weightsBlock2 V c t k q)

/-- An entry of the result is in point t's block exactly when its coordinates are in the block's ranges. -/
theorem inBlock2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v73).slice (win2_2.rect t)).set ↔ _
  rw [View.set_slice_whole, Rect.mem_set_unit]
  exact Iff.rfl

/-- Every entry of the result is in the block of the point its row divided by 5000 names. -/
theorem covered2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, e4, e5⟩ := blockIndex2 t
  refine ⟨t, flush2_2 t, ?_⟩
  rw [inBlock2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region its result array holds the whole product of the two arrays it was entered with. -/
theorem projected2 (c : Dev nD) :
    (dat2 V c).arrAt 2 cfg2.N = GcnSpec.project (V c main_v47) (V c main_arg3) :=
  (dat2 V c).arrAt_eq_of_cover 2 _ (fun t _ => written2 V c t) covered2

end Cert.KernelIdeal.Hand

end
-- ==== Proof.CombineSecond.lean ====
/-
  The second layer's combine region: the array it leaves is the pointwise combination of the four arrays it reads.

  The grid has 20 points; point t reads rows 5000·t … 5000·t + 4999 of the aggregate, of the projected features and
  of the column of squared inverse root degrees, and the whole bias row, and writes the same rows of the result.
  Entry (p, q) of what it writes is (aggregate + degree factor · projected) + bias at the block's entries, and each
  block entry is the whole array's entry in row 5000·t + p: so the block written is the same rows of the whole
  pointwise combination.  Every row lies in the block of the point t = row / 5000, so the blocks cover the array.
-/
import proofs.«178049_j20804821581912_1_alg».proof.Proof.Gen.KernelIdeal.Frame
import proofs.«178049_j20804821581912_1_alg».proof.Proof.BlockBodies
import proofs.«178049_j20804821581912_1_alg».proof.Proof.GcnSpec
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets3 : (![0, 0] : Fin 2 → Nat) = fun _ => 0 := funext fun a => by fin_cases a <;> rfl

/-- The five index maps, decided once over the grid: the three row-blocked inputs and the result take the point's
    own block of rows; the bias row's block is the one block there is. -/
theorem blockIndex3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregate's block at point t, at (p, q): the aggregate at (5000·t + p, q). -/
theorem aggregateBlock3 (c : Dev nD) (t : Fin cfg3.N) (p : Fin 5000) (q : Fin 128) (r : Fin 100000) (hr : r.val = t.val * 5000 + p.val) :
    (iblk3 V c 0 t : Vec Ideal S5000x128 .f32) (ix2 p q) = (V c main_v86 : S100000x128.Idx → EReal) (ix2 r q) := by
  obtain ⟨e0, e1, -⟩ := blockIndex3 t
  show (V c main_v86 : S100000x128.Idx → EReal) (((cfg3.win 0).blk t).view.emb (ix2 p q)) = _
  refine congrArg _ (funext fun a => Fin.ext ?_)
  match a with
  | ⟨0, _⟩ => show win3_0.index t (0 : Fin 2) * 5000 + 1 * p.val = r.val; omega
  | ⟨1, _⟩ => show win3_0.index t (1 : Fin 2) * 128 + 1 * q.val = q.val; omega

/-- The projected features' block at point t, at (p, q): the projected features at (5000·t + p, q). -/
theorem projectedBlock3 (c : Dev nD) (t : Fin cfg3.N) (p : Fin 5000) (q : Fin 128) (r : Fin 100000) (hr : r.val = t.val * 5000 + p.val) :
    (iblk3 V c 1 t : Vec Ideal S5000x128 .f32) (ix2 p q) = (V c main_v73 : S100000x128.Idx → EReal) (ix2 r q) := by
  obtain ⟨-, -, e2, e3, -⟩ := blockIndex3 t
  show (V c main_v73 : S100000x128.Idx → EReal) (((cfg3.win 1).blk t).view.emb (ix2 p q)) = _
  refine congrArg _ (funext fun a => Fin.ext ?_)
  match a with
  | ⟨0, _⟩ => show win3_1.index t (0 : Fin 2) * 5000 + 1 * p.val = r.val; omega
  | ⟨1, _⟩ => show win3_1.index t (1 : Fin 2) * 128 + 1 * q.val = q.val; omega

/-- The degree column's block at point t, at row p: the column at row 5000·t + p. -/
theorem degreeBlock3 (c : Dev nD) (t : Fin cfg3.N) (p : Fin 5000) (r : Fin 100000) (hr : r.val = t.val * 5000 + p.val) :
    (iblk3 V c 2 t : Vec Ideal S5000x1 .f32) (ix2 p (0 : Fin 1)) = (V c main_v88 : S100000x1.Idx → EReal) (ix2 r (0 : Fin 1)) := by
  obtain ⟨-, -, -, -, e4, e5, -⟩ := blockIndex3 t
  show (V c main_v88 : S100000x1.Idx → EReal) (((cfg3.win 2).blk t).view.emb (ix2 p (0 : Fin 1))) = _
  refine congrArg _ (funext fun a => Fin.ext ?_)
  match a with
  | ⟨0, _⟩ => show win3_2.index t (0 : Fin 2) * 5000 + 1 * p.val = r.val; omega
  | ⟨1, _⟩ => show win3_2.index t (1 : Fin 2) * 1 + 1 * 0 = 0; omega

/-- The bias row's block at any point is the bias row. -/
theorem biasBlock3 (c : Dev nD) (t : Fin cfg3.N) (q : Fin 128) :
    (iblk3 V c 3 t : Vec Ideal S1x128 .f32) (ix2 (0 : Fin 1) q) = (V c main_v89 : S1x128.Idx → EReal) (ix2 (0 : Fin 1) q) := by
  obtain ⟨-, -, -, -, -, -, e6, e7, -⟩ := blockIndex3 t
  show (V c main_v89 : S1x128.Idx → EReal) (((cfg3.win 3).blk t).view.emb (ix2 (0 : Fin 1) q)) = _
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * q.val = q.val; omega

/-- What point t writes back is its rows of the whole pointwise combination. -/
theorem written3 (c : Dev nD) (t : Fin cfg3.N) :
    (dat3 V c).flushed 4 t = ((cfg3.win 4).blk t).view.read (Elt Ideal)
      (GcnSpec.combine (V c main_v86) (V c main_v73) (V c main_v88) (V c main_v89)) := by
  show (cfg3.win 4).cut (grid3.coords t) ((dat3 V c).after 4 t) = _
  rw [after3_4]
  unfold out3_4
  rw [View.canon_unit_zero zeroOffsets3]
  simp only [View.ld_unit_zero (S := S5000x128) zeroOffsets3, View.ld_unit_zero (S := S5000x1) zeroOffsets3, View.ld_unit_zero (S := S1x128) zeroOffsets3]
  funext j
  obtain ⟨p, q, rfl⟩ : ∃ (p : Fin 5000) (q : Fin 128), j = ix2 p q := ⟨j 0, j 1, eq_ix2 j⟩
  obtain ⟨-, -, -, -, -, -, -, -, e8, e9⟩ := blockIndex3 t
  have ht : t.val < 20 := Nat.lt_of_lt_of_eq t.isLt N_3
  obtain ⟨r, hr⟩ : ∃ r : Fin 100000, r.val = t.val * 5000 + p.val := ⟨⟨t.val * 5000 + p.val, by have := p.isLt; omega⟩, rfl⟩
  have hemb : ((cfg3.win 4).blk t).view.emb (ix2 p q) = (ix2 r q : S100000x128.Idx) := funext fun a => Fin.ext (by
    match a with
    | ⟨0, _⟩ => show win3_4.index t (0 : Fin 2) * 5000 + 1 * p.val = r.val; omega
    | ⟨1, _⟩ => show win3_4.index t (1 : Fin 2) * 128 + 1 * q.val = q.val; omega)
  show k3_pay1 (F := Ideal) (iblk3 V c 0 t) (iblk3 V c 2 t) (iblk3 V c 1 t) (iblk3 V c 3 t) (ix2 p q)
    = GcnSpec.combine (V c main_v86) (V c main_v73) (V c main_v88) (V c main_v89) (((cfg3.win 4).blk t).view.emb (ix2 p q))
  rw [hemb]
  refine (combineBody3_apply (iblk3 V c 0 t) (iblk3 V c 2 t) (iblk3 V c 1 t) (iblk3 V c 3 t) p q).trans ?_
  refine Eq.trans ?_ (GcnSpec.combine_apply _ _ _ _ r q).symm
  have a0 := aggregateBlock3 V c t p q r hr
  have a1 := projectedBlock3 V c t p q r hr
  have a2 := degreeBlock3 V c t p r hr
  have a3 := biasBlock3 V c t q
  exact congr (congrArg _ (congr (congrArg _ a0) (congr (congrArg _ a2) a1))) a3

/-- An entry of the result is in point t's block exactly when its coordinates are in the block's ranges. -/
theorem inBlock3 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v90).slice (win3_4.rect t)).set ↔ _
  rw [View.set_slice_whole, Rect.mem_set_unit]
  exact Iff.rfl

/-- Every entry of the result is in the block of the point its row divided by 5000 names. -/
theorem covered3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, ht⟩ : ∃ t : Fin cfg3.N, t.val = (i 0).val / 5000 :=
    ⟨⟨(i 0).val / 5000, by rw [show cfg3.N = 20 from N_3]; omega⟩, rfl⟩
  obtain ⟨-, -, -, -, -, -, -, -, e8, e9⟩ := blockIndex3 t
  refine ⟨t, flush3_4 t, ?_⟩
  rw [inBlock3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- After the region its result array holds the pointwise combination of the four arrays it was entered with. -/
theorem combined3 (c : Dev nD) :
    (dat3 V c).arrAt 4 cfg3.N = GcnSpec.combine (V c main_v86) (V c main_v73) (V c main_v88) (V c main_v89) :=
  (dat3 V c).arrAt_eq_of_cover 4 _ (fun t _ => written3 V c t) covered3

end Cert.KernelIdeal.Hand

end
-- ==== Proof.KernelStagesSecond.lean ====
/-
  The second layer of the kernel's program, buffer by buffer: the degrees and the edge weights are computed again
  from the same edge lists, the second projection region multiplies the first layer's output by the second weight
  matrix, the host gathers, weights and scatter-adds its rows, and the second combine region finishes.  Each
  buffer is identified with the reference's stage of the same meaning, as in the first layer.
-/
import proofs.«178049_j20804821581912_1_alg».proof.Proof.KernelStages
import proofs.«178049_j20804821581912_1_alg».proof.Proof.ProjectSecond
import proofs.«178049_j20804821581912_1_alg».proof.Proof.CombineSecond

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx
open Cert.ReferenceIdeal.Read

/-- The `where` of a mask, a vector and a scalar, as the host stretch computes it from any contents: the vector where the
    mask holds, the scalar broadcast elsewhere. -/
theorem where_second (W : Valuation τ sig (Elt Ideal)) (p : (⟨S100000, .i1⟩ : BufTy).Contents (Elt Ideal))
    (a : (⟨S100000, .f32⟩ : BufTy).Contents (Elt Ideal)) (z : (⟨S_, .f32⟩ : BufTy).Contents (Elt Ideal))
    (hp : (W (Proc.devRef .tc main_v55) : (⟨S100000, .i1⟩ : BufTy).Contents (Elt Ideal)) = p)
    (ha : (W (Proc.devRef .tc main_v56) : (⟨S100000, .f32⟩ : BufTy).Contents (Elt Ideal)) = a)
    (hz : (W (Proc.devRef .tc main_cst_14) : (⟨S_, .f32⟩ : BufTy).Contents (Elt Ideal)) = z) :
    (StableHlo.after (hostOps2_1 (F := Ideal)) W (Proc.devRef .tc main_v57) : (⟨S100000, .f32⟩ : BufTy).Contents (Elt Ideal))
      = select p a (broadcastInDim S100000 ![] bcast_S_S100000 (id z)) := by
  dsimp only [hostOps2_1]
  after_results_simp
  rw [hp, ha, hz]
  rfl

/-! ### A buffer that a host stretch does not write keeps its value -/

theorem kept_hostOps2_2_v57 (W : Valuation τ sig (Elt Ideal)) :
    StableHlo.after (hostOps2_2 (F := Ideal)) W (Proc.devRef .tc main_v57) = W (Proc.devRef .tc main_v57) := by
  dsimp only [hostOps2_2]; after_results_simp
theorem kept_hostOps3_v73 (W : Valuation τ sig (Elt Ideal)) :
    StableHlo.after (hostOps3 (F := Ideal)) W (Proc.devRef .tc main_v73) = W (Proc.devRef .tc main_v73) := by
  dsimp only [hostOps3]; after_results_simp

variable (m : (ℓ : Loc nD τ sig) → Buf (Elt Ideal) ℓ) (ρ : Dev nD → PrngReg) (c : Dev nD)

set_option maxHeartbeats 4000000 in
set_option maxRecDepth 65536 in
theorem at7_v55 : (W7 m ρ c (Proc.devRef .tc main_v55) : (⟨S100000, .i1⟩ : BufTy).Contents (Elt Ideal)) = val_main_v59 (F := Ideal) (m ((c : Thread nD τ).loc main_arg5)) (m ((c : Thread nD τ).loc main_arg6)) := by
  have h0 := at6_v4 m ρ c
  show StableHlo.after (hostOps2 (F := Ideal)) (W6 m ρ c) (Proc.devRef .tc main_v55) = _
  generalize W6 m ρ c = W at h0 ⊢
  dsimp only [hostOps2]
  after_results_simp
  rw [h0]
  rfl
set_option maxHeartbeats 4000000 in
set_option maxRecDepth 65536 in
theorem at7_v56 : (W7 m ρ c (Proc.devRef .tc main_v56) : (⟨S100000, .f32⟩ : BufTy).Contents (Elt Ideal)) = val_main_v60 (F := Ideal) (m ((c : Thread nD τ).loc main_arg5)) (m ((c : Thread nD τ).loc main_arg6)) := by
  have h0 := at6_v4 m ρ c
  show StableHlo.after (hostOps2 (F := Ideal)) (W6 m ρ c) (Proc.devRef .tc main_v56) = _
  generalize W6 m ρ c = W at h0 ⊢
  dsimp only [hostOps2]
  after_results_simp
  rw [h0]
  rfl
set_option maxHeartbeats 4000000 in
set_option maxRecDepth 65536 in
theorem at7_cst_14 : (W7 m ρ c (Proc.devRef .tc main_cst_14) : (⟨S_, .f32⟩ : BufTy).Contents (Elt Ideal)) = val_main_cst_14 (F := Ideal) := by
  show StableHlo.after (hostOps2 (F := Ideal)) (W6 m ρ c) (Proc.devRef .tc main_cst_14) = _
  generalize W6 m ρ c = W
  dsimp only [hostOps2]
  after_results_simp
  rfl
theorem at8_v57 : (W8 m ρ c (Proc.devRef .tc main_v57) : (⟨S100000, .f32⟩ : BufTy).Contents (Elt Ideal)) = val_main_v61 (F := Ideal) (m ((c : Thread nD τ).loc main_arg5)) (m ((c : Thread nD τ).loc main_arg6)) :=
  (where_second (W7 m ρ c) _ _ _ (at7_v55 m ρ c) (at7_v56 m ρ c) (at7_cst_14 m ρ c)).trans rfl
theorem at9_v57 : (W9 m ρ c (Proc.devRef .tc main_v57) : (⟨S100000, .f32⟩ : BufTy).Contents (Elt Ideal)) = val_main_v61 (F := Ideal) (m ((c : Thread nD τ).loc main_arg5)) (m ((c : Thread nD τ).loc main_arg6)) :=
  (kept_hostOps2_2_v57 (W8 m ρ c)).trans (at8_v57 m ρ c)
theorem at10_v57 : (W10 m ρ c (Proc.devRef .tc main_v57) : (⟨S100000, .f32⟩ : BufTy).Contents (Elt Ideal)) = val_main_v61 (F := Ideal) (m ((c : Thread nD τ).loc main_arg5)) (m ((c : Thread nD τ).loc main_arg6)) :=
  (W10_of_ne m ρ c main_v57 (by decide)).trans (at9_v57 m ρ c)
set_option maxHeartbeats 4000000 in
set_option maxRecDepth 65536 in
theorem at9_v72 : (W9 m ρ c (Proc.devRef .tc main_v72) : (⟨S1600000, .f32⟩ : BufTy).Contents (Elt Ideal)) = val_main_v76 (F := Ideal) (m ((c : Thread nD τ).loc main_arg5)) (m ((c : Thread nD τ).loc main_arg6)) := by
  have h0 := at8_v57 m ρ c
  have h1 := at8_v2 m ρ c
  have h2 := at8_v4 m ρ c
  show StableHlo.after (hostOps2_2 (F := Ideal)) (W8 m ρ c) (Proc.devRef .tc main_v72) = _
  generalize W8 m ρ c = W at h0 h1 h2 ⊢
  dsimp only [hostOps2_2]
  after_results_simp
  rw [h0, h1, h2]
  rfl
theorem at10_v72 : (W10 m ρ c (Proc.devRef .tc main_v72) : (⟨S1600000, .f32⟩ : BufTy).Contents (Elt Ideal)) = val_main_v76 (F := Ideal) (m ((c : Thread nD τ).loc main_arg5)) (m ((c : Thread nD τ).loc main_arg6)) :=
  (W10_of_ne m ρ c main_v72 (by decide)).trans (at9_v72 m ρ c)
theorem at10_v73 : (W10 m ρ c (Proc.devRef .tc main_v73) : (⟨S100000x128, .f32⟩ : BufTy).Contents (Elt Ideal)) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) :=
  (W10_arr m ρ c 2).trans ((projected2 (V9 m ρ) c).trans
    ((congr (congrArg GcnSpec.project (at9_v47 m ρ c)) (at9_arg3 m ρ c)).trans (Cert.ReferenceIdeal.Hand.product2_eq_project _ _ _ _ _ _).symm))
theorem at11_v73 : (W11 m ρ c (Proc.devRef .tc main_v73) : (⟨S100000x128, .f32⟩ : BufTy).Contents (Elt Ideal)) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) :=
  (kept_hostOps3_v73 (W10 m ρ c)).trans (at10_v73 m ρ c)
set_option maxHeartbeats 4000000 in
set_option maxRecDepth 65536 in
theorem at11_v86 : (W11 m ρ c (Proc.devRef .tc main_v86) : (⟨S100000x128, .f32⟩ : BufTy).Contents (Elt Ideal)) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  have h0 := at10_v72 m ρ c
  have h1 := at10_v2 m ρ c
  have h2 := at10_v4 m ρ c
  have h3 := at10_v73 m ρ c
  show StableHlo.after (hostOps3 (F := Ideal)) (W10 m ρ c) (Proc.devRef .tc main_v86) = _
  generalize W10 m ρ c = W at h0 h1 h2 h3 ⊢
  dsimp only [hostOps3]
  after_results_simp
  rw [h0, h1, h2, h3]
  rfl
set_option maxHeartbeats 4000000 in
set_option maxRecDepth 65536 in
theorem at11_v88 : (W11 m ρ c (Proc.devRef .tc main_v88) : (⟨S100000x1, .f32⟩ : BufTy).Contents (Elt Ideal)) = val_main_v92 (F := Ideal) (m ((c : Thread nD τ).loc main_arg5)) (m ((c : Thread nD τ).loc main_arg6)) := by
  have h0 := at10_v57 m ρ c
  show StableHlo.after (hostOps3 (F := Ideal)) (W10 m ρ c) (Proc.devRef .tc main_v88) = _
  generalize W10 m ρ c = W at h0 ⊢
  dsimp only [hostOps3]
  after_results_simp
  rw [h0]
  rfl
set_option maxHeartbeats 4000000 in
set_option maxRecDepth 65536 in
theorem at11_v89 : (W11 m ρ c (Proc.devRef .tc main_v89) : (⟨S1x128, .f32⟩ : BufTy).Contents (Elt Ideal)) = val_main_v96 (F := Ideal) (m ((c : Thread nD τ).loc main_arg4)) := by
  have h0 := at10_arg4 m ρ c
  show StableHlo.after (hostOps3 (F := Ideal)) (W10 m ρ c) (Proc.devRef .tc main_v89) = _
  generalize W10 m ρ c = W at h0 ⊢
  dsimp only [hostOps3]
  after_results_simp
  rw [h0]
  exact biasRow_eq _
/-- The kernel's result array after its last region is the reference's last stage of the same arguments. -/
theorem at12_v90 : (W12 m ρ c (Proc.devRef .tc main_v90) : (⟨S100000x128, .f32⟩ : BufTy).Contents (Elt Ideal)) = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W12_arr m ρ c 4).trans ((combined3 (V11 m ρ) c).trans
    ((congr (congr (congr (congrArg GcnSpec.combine (at11_v86 m ρ c)) (at11_v73 m ρ c)) (at11_v88 m ρ c)) (at11_v89 m ρ c)).trans (Cert.ReferenceIdeal.Hand.layer2_eq _ _ _ _ _ _ _).symm))

end Cert.KernelIdeal.Hand

end
-- ==== Proof.lean ====
/-
  Two layers of graph convolution on 100000 nodes with 128 features and 1600000 edges: the kernel's program against
  its reference, over the extended reals.

  A layer computes, for node features x, a weight matrix w, a bias b and edge lists src → dst:
    deg(v)  = 1 + the number of edges into v,        dinv(v) = deg(v)^(-1/2) where deg(v) > 0, else 0,
    h       = x · w,
    agg(v)  = the sum over the edges e into v of dinv(src e) · dinv(dst e) · h(src e),
    out(v)  = (agg(v) + dinv(v)² · h(v)) + b.
  Both programs compute the degrees, the edge weights, the gather of h along the edges and the scatter-add onto the
  target nodes with the same host operations in the same order.  They differ in two places per layer.  The product
  x · w is one whole product in the reference, and in the kernel's program a region that multiplies 5000 rows at a
  time (after rounding both operands to a narrower float format, which changes nothing over the extended reals);
  both are, at every entry, the same sum over the 128 contraction indices.  The last step is whole-array
  broadcasts, a product and two sums in the reference, and in the kernel's program a region that does the same
  arithmetic 5000 rows at a time; both are (agg + dinv² · h) + b at every entry, with the same grouping.  No law of
  arithmetic beyond reading the two sides at an entry is needed, so the precondition that the float inputs are
  finite is not used for the values.

  Proof/GcnSpec.lean states the product and the last step as functions of whole arrays; Proof/BlockBodies.lean reads
  the two kernel bodies at an entry; Proof/ProjectFirst.lean, ProjectSecond.lean, CombineFirst.lean and
  CombineSecond.lean show that the blocks each region writes are the rows of those functions and cover the result;
  Proof/RefLaws.lean shows the reference's operations are the same functions; Proof/KernelStages.lean and KernelStagesSecond.lean follow every
  buffer of the kernel's program through its host stretches and regions and identifies it with the reference's stage
  of the same meaning; Proof/KernelRun.lean is the kernel's program run with its result named.  Proof/RefRun.lean and
  Proof/RefRead.lean are the reference's run and its stages.
-/
import proofs.«178049_j20804821581912_1_alg».proof.Defs
import proofs.«178049_j20804821581912_1_alg».proof.Proof.Gen.Kernel
import proofs.«178049_j20804821581912_1_alg».proof.Proof.Gen.Kernel.Skeleton
import proofs.«178049_j20804821581912_1_alg».proof.Proof.Gen.Kernel.Launch
import proofs.«178049_j20804821581912_1_alg».proof.Proof.Gen.Kernel.Points
import proofs.«178049_j20804821581912_1_alg».proof.Proof.Gen.Kernel.Frame
import proofs.«178049_j20804821581912_1_alg».proof.Proof.Gen.KernelIdeal
import proofs.«178049_j20804821581912_1_alg».proof.Proof.Gen.KernelIdeal.Skeleton
import proofs.«178049_j20804821581912_1_alg».proof.Proof.Gen.KernelIdeal.Launch
import proofs.«178049_j20804821581912_1_alg».proof.Proof.Gen.KernelIdeal.Points
import proofs.«178049_j20804821581912_1_alg».proof.Proof.Gen.KernelIdeal.Frame
import proofs.«178049_j20804821581912_1_alg».proof.Proof.Gen.ReferenceIdeal
import proofs.«178049_j20804821581912_1_alg».proof.Proof.Gen.Pre_finite_inputs
import proofs.«178049_j20804821581912_1_alg».proof.Proof.RefRead
import proofs.«178049_j20804821581912_1_alg».proof.Proof.KernelRun
import proofs.«178049_j20804821581912_1_alg».proof.Proof.KernelStagesSecond
import Idealize.ShloMosaic.Adequacy
import Idealize.ShloMosaic.Init

noncomputable section

namespace Cert.Proof

open Idealize.ShloMosaic Idealize.SL.Sem

/-- The kernel's program as printed runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel's program over the extended reals rewrote none of its operations. -/
theorem preserves : Cert.preserves_Kernel_KernelIdeal := trivial

/-- From memories that agree on the arguments both programs end with the same result: the reference's last stage
    of the arguments.  The kernel's program ends there by following its buffers through its segments; the reference
    ends there by its run. -/
theorem algebraic : Cert.algebraic_KernelIdeal_ReferenceIdeal := by
  intro m ρ m' ρ' _ hagree
  refine ⟨fun c => Cert.ReferenceIdeal.Read.val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Hand.at12_v90 m ρ c), (h c).2⟩)
      (Cert.KernelIdeal.Hand.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6⟩ := hagree c
    rw [Cert.ReferenceIdeal.Read.val_main_v98_eq, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
